-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v29)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v29) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v50) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1200000x128 : Shape := ⟨2, ![1200000, 128]⟩
abbrev S1200000x64 : Shape := ⟨2, ![1200000, 64]⟩
abbrev S100000x64 : Shape := ⟨2, ![100000, 64]⟩
abbrev S1200000 : Shape := ⟨1, ![1200000]⟩
abbrev S128x64 : Shape := ⟨2, ![128, 64]⟩
abbrev S64 : Shape := ⟨1, ![64]⟩
abbrev S64x64 : Shape := ⟨2, ![64, 64]⟩
abbrev S_ : Shape := ⟨0, ![]⟩

class Facts : Prop where
  bcast_S_S1200000x128 : S_.BroadcastsInDim S1200000x128 (![] : Fin 0 → Fin S1200000x128.rank)
  reducesTo_S1200000x128_S_d0_1 : S1200000x128.ReducesTo [0, 1] S_
  h_S_ : 0 < S_.numel
  bcast_S_S1200000x64 : S_.BroadcastsInDim S1200000x64 (![] : Fin 0 → Fin S1200000x64.rank)
  reducesTo_S1200000x64_S_d0_1 : S1200000x64.ReducesTo [0, 1] S_
  bcast_S_S100000x64 : S_.BroadcastsInDim S100000x64 (![] : Fin 0 → Fin S100000x64.rank)
  reducesTo_S100000x64_S_d0_1 : S100000x64.ReducesTo [0, 1] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_

variable [Facts]

def fn_part3 {F : FTy → Type} [FloatOps F] (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  main_v53

def fn_part2 {F : FTy → Type} [FloatOps F] (main_arg9 : FVec F S64x64 .f32) (main_arg10 : FVec F S64 .f32) (main_arg11 : FVec F S64x64 .f32) (main_arg12 : FVec F S64 .f32) (main_v33 : IVec S_ 1) : IVec S_ 1 :=
  let main_v34 : FVec F S64x64 .f32 := Host.absf main_arg9
  let main_cst_12 : FVec F S_ .f32 := constant S_ .f32 0x7F800000#32
  let main_v35 : FVec F S64x64 .f32 := broadcastInDim S64x64 ![] bcast_S_S64x64 main_cst_12
  let main_v36 : IVec S64x64 1 := cmpf .olt main_v34 main_v35
  let main_c_13 : IVec S_ 1 := constantI S_ 1 1#1
  let main_v37 : IVec S_ 1 := (fun x v => Host.reduce IntOp.andi x v reducesTo_S64x64_S_d0_1 h_S_) main_v36 main_c_13
  let main_v38 : IVec S_ 1 := andi main_v33 main_v37
  let main_v39 : FVec F S64 .f32 := Host.absf main_arg10
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S64x64 .f32 := Host.absf main_arg11
  let main_cst_16 : FVec F S_ .f32 := constant S_ .f32 0x7F800000#32
  let main_v45 : FVec F S64x64 .f32 := broadcastInDim S64x64 ![] bcast_S_S64x64 main_cst_16
  let main_v46 : IVec S64x64 1 := cmpf .olt main_v44 main_v45
  let main_c_17 : IVec S_ 1 := constantI S_ 1 1#1
  let main_v47 : IVec S_ 1 := (fun x v => Host.reduce IntOp.andi x v reducesTo_S64x64_S_d0_1 h_S_) main_v46 main_c_17
  let main_v48 : IVec S_ 1 := andi main_v43 main_v47
  let main_v49 : FVec F S64 .f32 := Host.absf main_arg12
  let main_cst_18 : FVec F S_ .f32 := constant S_ .f32 0x7F800000#32
  let main_v50 : FVec F S64 .f32 := broadcastInDim S64 ![] bcast_S_S64 main_cst_18
  fn_part3 (F := F) main_v48 main_v49 main_v50

def fn_part1 {F : FTy → Type} [FloatOps F] (main_arg6 : FVec F S64 .f32) (main_arg7 : FVec F S64x64 .f32) (main_arg8 : FVec F S64 .f32) (main_arg9 : FVec F S64x64 .f32) (main_arg10 : FVec F S64 .f32) (main_arg11 : FVec F S64x64 .f32) (main_arg12 : FVec F S64 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x64 .f32 := Host.absf main_arg7
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg8
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg9 main_arg10 main_arg11 main_arg12 main_v33

def fn {F : FTy → Type} [FloatOps F] (main_arg0 : FVec F S1200000x128 .f32) (main_arg1 : FVec F S1200000x64 .f32) (main_arg2 : FVec F S100000x64 .f32) (main_arg3 : IVec S1200000 32) (main_arg4 : IVec S1200000 32) (main_arg5 : FVec F S128x64 .f32) (main_arg6 : FVec F S64 .f32) (main_arg7 : FVec F S64x64 .f32) (main_arg8 : FVec F S64 .f32) (main_arg9 : FVec F S64x64 .f32) (main_arg10 : FVec F S64 .f32) (main_arg11 : FVec F S64x64 .f32) (main_arg12 : FVec F S64 .f32) : IVec S_ 1 :=
  let main_v0 : FVec F S1200000x128 .f32 := Host.absf main_arg0
  let main_cst : FVec F S_ .f32 := constant S_ .f32 0x7F800000#32
  let main_v1 : FVec F S1200000x128 .f32 := broadcastInDim S1200000x128 ![] bcast_S_S1200000x128 main_cst
  let main_v2 : IVec S1200000x128 1 := cmpf .olt main_v0 main_v1
  let main_c : IVec S_ 1 := constantI S_ 1 1#1
  let main_v3 : IVec S_ 1 := (fun x v => Host.reduce IntOp.andi x v reducesTo_S1200000x128_S_d0_1 h_S_) main_v2 main_c
  let main_v4 : FVec F S1200000x64 .f32 := Host.absf main_arg1
  let main_cst_0 : FVec F S_ .f32 := constant S_ .f32 0x7F800000#32
  let main_v5 : FVec F S1200000x64 .f32 := broadcastInDim S1200000x64 ![] bcast_S_S1200000x64 main_cst_0
  let main_v6 : IVec S1200000x64 1 := cmpf .olt main_v4 main_v5
  let main_c_1 : IVec S_ 1 := constantI S_ 1 1#1
  let main_v7 : IVec S_ 1 := (fun x v => Host.reduce IntOp.andi x v reducesTo_S1200000x64_S_d0_1 h_S_) main_v6 main_c_1
  let main_v8 : IVec S_ 1 := andi main_v3 main_v7
  let main_v9 : FVec F S100000x64 .f32 := Host.absf main_arg2
  let main_cst_2 : FVec F S_ .f32 := constant S_ .f32 0x7F800000#32
  let main_v10 : FVec F S100000x64 .f32 := broadcastInDim S100000x64 ![] bcast_S_S100000x64 main_cst_2
  let main_v11 : IVec S100000x64 1 := cmpf .olt main_v9 main_v10
  let main_c_3 : IVec S_ 1 := constantI S_ 1 1#1
  let main_v12 : IVec S_ 1 := (fun x v => Host.reduce IntOp.andi x v reducesTo_S100000x64_S_d0_1 h_S_) main_v11 main_c_3
  let main_v13 : IVec S_ 1 := andi main_v8 main_v12
  let main_v14 : FVec F S128x64 .f32 := Host.absf main_arg5
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg6 main_arg7 main_arg8 main_arg9 main_arg10 main_arg11 main_arg12 main_v13 main_v16
-- ==== Kernel.lean ====
abbrev S1200000x128 : Shape := ⟨2, ![1200000, 128]⟩
abbrev S1200000x64 : Shape := ⟨2, ![1200000, 64]⟩
abbrev S100000x64 : Shape := ⟨2, ![100000, 64]⟩
abbrev S1200000 : Shape := ⟨1, ![1200000]⟩
abbrev S128x64 : Shape := ⟨2, ![128, 64]⟩
abbrev S64 : Shape := ⟨1, ![64]⟩
abbrev S64x64 : Shape := ⟨2, ![64, 64]⟩
abbrev S1x64 : Shape := ⟨2, ![1, 64]⟩
abbrev S8000x128 : Shape := ⟨2, ![8000, 128]⟩
abbrev S8000x64 : Shape := ⟨2, ![8000, 64]⟩
abbrev S_ : Shape := ⟨0, ![]⟩
abbrev S1200000x1 : Shape := ⟨2, ![1200000, 1]⟩
abbrev S100000 : Shape := ⟨1, ![100000]⟩
abbrev S100000x1 : Shape := ⟨2, ![100000, 1]⟩
abbrev S5000x64 : Shape := ⟨2, ![5000, 64]⟩
abbrev S5000x1 : Shape := ⟨2, ![5000, 1]⟩

abbrev nBuf : Space → Nat
  | .hbm => 54
  | .vmem => 20
  | .smem => 0
  | _ => 0

abbrev bufTy : (tb : Table) → Fin (tcTables nBuf tb) → BufTy
  | .hbm, ⟨0, _⟩ => ⟨S1200000x128, .f32⟩
  | .hbm, ⟨1, _⟩ => ⟨S1200000x64, .f32⟩
  | .hbm, ⟨2, _⟩ => ⟨S100000x64, .f32⟩
  | .hbm, ⟨3, _⟩ => ⟨S1200000, .i32⟩
  | .hbm, ⟨4, _⟩ => ⟨S1200000, .i32⟩
  | .hbm, ⟨5, _⟩ => ⟨S128x64, .f32⟩
  | .hbm, ⟨6, _⟩ => ⟨S64, .f32⟩
  | .hbm, ⟨7, _⟩ => ⟨S64x64, .f32⟩
  | .hbm, ⟨8, _⟩ => ⟨S64, .f32⟩
  | .hbm, ⟨9, _⟩ => ⟨S64x64, .f32⟩
  | .hbm, ⟨10, _⟩ => ⟨S64, .f32⟩
  | .hbm, ⟨11, _⟩ => ⟨S64x64, .f32⟩
  | .hbm, ⟨12, _⟩ => ⟨S64, .f32⟩
  | .hbm, ⟨13, _⟩ => ⟨S1x64, .f32⟩
  | .hbm, ⟨14, _⟩ => ⟨S1x64, .f32⟩
  | .hbm, ⟨15, _⟩ => ⟨S1200000x64, .f32⟩
  | .hbm, ⟨16, _⟩ => ⟨S_, .i32⟩
  | .hbm, ⟨17, _⟩ => ⟨S1200000, .i32⟩
  | .hbm, ⟨18, _⟩ => ⟨S1200000, .i1⟩
  | .hbm, ⟨19, _⟩ => ⟨S_, .i32⟩
  | .hbm, ⟨20, _⟩ => ⟨S1200000, .i32⟩
  | .hbm, ⟨21, _⟩ => ⟨S1200000, .i32⟩
  | .hbm, ⟨22, _⟩ => ⟨S1200000, .i32⟩
  | .hbm, ⟨23, _⟩ => ⟨S1200000x1, .i32⟩
  | .hbm, ⟨24, _⟩ => ⟨S1200000x64, .f32⟩
  | .hbm, ⟨25, _⟩ => ⟨S1200000x64, .f32⟩
  | .hbm, ⟨26, _⟩ => ⟨S_, .f32⟩
  | .hbm, ⟨27, _⟩ => ⟨S100000x64, .f32⟩
  | .hbm, ⟨28, _⟩ => ⟨S1200000x1, .i32⟩
  | .hbm, ⟨29, _⟩ => ⟨S100000x64, .f32⟩
  | .hbm, ⟨30, _⟩ => ⟨S_, .i32⟩
  | .hbm, ⟨31, _⟩ => ⟨S1200000, .i32⟩
  | .hbm, ⟨32, _⟩ => ⟨S_, .i32⟩
  | .hbm, ⟨33, _⟩ => ⟨S100000, .i32⟩
  | .hbm, ⟨34, _⟩ => ⟨S1200000x1, .i32⟩
  | .hbm, ⟨35, _⟩ => ⟨S100000, .i32⟩
  | .hbm, ⟨36, _⟩ => ⟨S100000, .f32⟩
  | .hbm, ⟨37, _⟩ => ⟨S_, .f32⟩
  | .hbm, ⟨38, _⟩ => ⟨S100000, .f32⟩
  | .hbm, ⟨39, _⟩ => ⟨S100000, .i1⟩
  | .hbm, ⟨40, _⟩ => ⟨S_, .f32⟩
  | .hbm, ⟨41, _⟩ => ⟨S100000, .f32⟩
  | .hbm, ⟨42, _⟩ => ⟨S100000, .f32⟩
  | .hbm, ⟨43, _⟩ => ⟨S_, .f32⟩
  | .hbm, ⟨44, _⟩ => ⟨S100000, .f32⟩
  | .hbm, ⟨45, _⟩ => ⟨S100000, .f32⟩
  | .hbm, ⟨46, _⟩ => ⟨S_, .f32⟩
  | .hbm, ⟨47, _⟩ => ⟨S_, .f32⟩
  | .hbm, ⟨48, _⟩ => ⟨S100000, .f32⟩
  | .hbm, ⟨49, _⟩ => ⟨S100000, .f32⟩
  | .hbm, ⟨50, _⟩ => ⟨S100000x1, .f32⟩
  | .hbm, ⟨51, _⟩ => ⟨S1x64, .f32⟩
  | .hbm, ⟨52, _⟩ => ⟨S1x64, .f32⟩
  | .hbm, ⟨53, _⟩ => ⟨S100000x64, .f32⟩
  | .local _ .vmem, ⟨0, _⟩ => ⟨S8000x128, .f32⟩
  | .local _ .vmem, ⟨1, _⟩ => ⟨S8000x128, .f32⟩
  | .local _ .vmem, ⟨2, _⟩ => ⟨S8000x64, .f32⟩
  | .local _ .vmem, ⟨3, _⟩ => ⟨S8000x64, .f32⟩
  | .local _ .vmem, ⟨4, _⟩ => ⟨S128x64, .f32⟩
  | .local _ .vmem, ⟨5, _⟩ => ⟨S1x64, .f32⟩
  | .local _ .vmem, ⟨6, _⟩ => ⟨S64x64, .f32⟩
  | .local _ .vmem, ⟨7, _⟩ => ⟨S1x64, .f32⟩
  | .local _ .vmem, ⟨8, _⟩ => ⟨S8000x64, .f32⟩
  | .local _ .vmem, ⟨9, _⟩ => ⟨S8000x64, .f32⟩
  | .local _ .vmem, ⟨10, _⟩ => ⟨S5000x64, .f32⟩
  | .local _ .vmem, ⟨11, _⟩ => ⟨S5000x64, .f32⟩
  | .local _ .vmem, ⟨12, _⟩ => ⟨S5000x1, .f32⟩
  | .local _ .vmem, ⟨13, _⟩ => ⟨S5000x1, .f32⟩
  | .local _ .vmem, ⟨14, _⟩ => ⟨S64x64, .f32⟩
  | .local _ .vmem, ⟨15, _⟩ => ⟨S1x64, .f32⟩
  | .local _ .vmem, ⟨16, _⟩ => ⟨S64x64, .f32⟩
  | .local _ .vmem, ⟨17, _⟩ => ⟨S1x64, .f32⟩
  | .local _ .vmem, ⟨18, _⟩ => ⟨S5000x64, .f32⟩
  | .local _ .vmem, ⟨19, _⟩ => ⟨S5000x64, .f32⟩
  | _, _ => ⟨S1200000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_c : Ref sig .tc := ⟨.hbm, 16, rfl⟩
abbrev main_v3 : Ref sig .tc := ⟨.hbm, 17, rfl⟩
abbrev main_v4 : Ref sig .tc := ⟨.hbm, 18, rfl⟩
abbrev main_c_0 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_cst : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_c_1 : Ref sig .tc := ⟨.hbm, 30, rfl⟩
abbrev main_v14 : Ref sig .tc := ⟨.hbm, 31, rfl⟩
abbrev main_c_2 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_cst_3 : Ref sig .tc := ⟨.hbm, 37, rfl⟩
abbrev main_v19 : Ref sig .tc := ⟨.hbm, 38, rfl⟩
abbrev main_v20 : Ref sig .tc := ⟨.hbm, 39, rfl⟩
abbrev main_cst_4 : Ref sig .tc := ⟨.hbm, 40, rfl⟩
abbrev main_v21 : Ref sig .tc := ⟨.hbm, 41, rfl⟩
abbrev main_v22 : Ref sig .tc := ⟨.hbm, 42, rfl⟩
abbrev main_cst_5 : Ref sig .tc := ⟨.hbm, 43, rfl⟩
abbrev main_v23 : Ref sig .tc := ⟨.hbm, 44, rfl⟩
abbrev main_v24 : Ref sig .tc := ⟨.hbm, 45, rfl⟩
abbrev main_cst_6 : Ref sig .tc := ⟨.hbm, 46, rfl⟩
abbrev main_call0_v0 : Ref sig .tc := ⟨.hbm, 47, rfl⟩
abbrev main_call0_v1 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg6_0 : Ref sig .tc := ⟨.vmem, 18, rfl⟩
abbrev cc1_stg6_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem3_0 : DmaSem sig := 15
abbrev cc1_sem4_0 : DmaSem sig := 16
abbrev cc1_sem5_0 : DmaSem sig := 17
abbrev cc1_sem6_0 : DmaSem sig := 18
abbrev cc1_sem6_1 : DmaSem sig := 19

abbrev nD : Nat := 1
abbrev τ : Topo := Topo.v7x

variable {F : FTy → Type} [FloatOps F]

abbrev grid0 : Pipeline.Grid := ⟨1, ![150], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S8000x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S5000x64 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  shapeCasts_S64_S1x64 : S64.ShapeCasts S1x64
  inb_S8000x128_S8000x128_0_0 : ∀ a, (![0, 0] : Fin 2 → Nat) a + S8000x128.size a ≤ S8000x128.size a
  h_S8000x128 : 0 < S8000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S8000x64 : S1x64.Broadcasts S8000x64
  inb_S64x64_S64x64_0_0 : ∀ a, (![0, 0] : Fin 2 → Nat) a + S64x64.size a ≤ S64x64.size a
  h_S64x64 : 0 < S64x64.numel
  inb_S8000x64_S8000x64_0_0 : ∀ a, (![0, 0] : Fin 2 → Nat) a + S8000x64.size a ≤ S8000x64.size a
  h_S8000x64 : 0 < S8000x64.numel
  bcast_S_S1200000 : S_.BroadcastsInDim S1200000 (![] : Fin 0 → Fin S1200000.rank)
  bcast_S1200000_S1200000x1_0 : S1200000.BroadcastsInDim S1200000x1 (![0] : Fin 1 → Fin S1200000x1.rank)
  bcast_S_S100000x64 : S_.BroadcastsInDim S100000x64 (![] : Fin 0 → Fin S100000x64.rank)
  bcast_S_S100000 : S_.BroadcastsInDim S100000 (![] : Fin 0 → Fin S100000.rank)
  shapeCasts_S100000_S100000x1 : S100000.ShapeCasts S100000x1
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x64 : S5000x1.Broadcasts S5000x64
  broadcasts_S1x64_S5000x64 : S1x64.Broadcasts S5000x64
  dot_S8000x128_S128x64_S8000x64_1_0_0_1_n_n_wf : DotDims.WF S8000x128 S128x64 S8000x64 [1] [0] [0] [1] [] []
  dot_S8000x64_S64x64_S8000x64_1_0_0_1_n_n_wf : DotDims.WF S8000x64 S64x64 S8000x64 [1] [0] [0] [1] [] []
  gather_S100000x64_S1200000x1_S1200000x64_1_0_n_n_0_1_164_wf : GatherDims.WF S100000x64 S1200000x1 S1200000x64 [1] [0] [] [0] [] 1 ![1, 64]
  scatter_S100000x64_S1200000x1_S1200000x64_1_0_0_1_wf : ScatterDims.WF S100000x64 S1200000x1 S1200000x64 [1] [0] [0] 1
  scatter_S100000_S1200000x1_S1200000_n_0_0_1_wf : ScatterDims.WF S100000 S1200000x1 S1200000 [] [0] [0] 1
  dot_S5000x64_S64x64_S5000x64_1_0_0_1_n_n_wf : DotDims.WF S5000x64 S64x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8000x128.size a ≤ S1200000x128.size a
  hwx0_0 : ∀ i : grid0.Coords, EltTy.bits .f32 = 32 ∨ (Rect.block (s := S1200000x128) S8000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8000x64.size a ≤ S1200000x64.size a
  hwx0_1 : ∀ i : grid0.Coords, EltTy.bits .f32 = 32 ∨ (Rect.block (s := S1200000x64) S8000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x64.size a ≤ S128x64.size a
  hwx0_2 : ∀ i : grid0.Coords, EltTy.bits .f32 = 32 ∨ (Rect.block (s := S128x64) S128x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x64.size a ≤ S64x64.size a
  hwx0_4 : ∀ i : grid0.Coords, EltTy.bits .f32 = 32 ∨ (Rect.block (s := S64x64) S64x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x64.size a ≤ S1x64.size a
  hwx0_5 : ∀ i : grid0.Coords, EltTy.bits .f32 = 32 ∨ (Rect.block (s := S1x64) S1x64.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S8000x64.size a ≤ S1200000x64.size a
  hwx0_6 : ∀ i : grid0.Coords, EltTy.bits .f32 = 32 ∨ (Rect.block (s := S1200000x64) S8000x64.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S100000x1.size a
  hwx1_1 : ∀ i : grid1.Coords, EltTy.bits .f32 = 32 ∨ (Rect.block (s := S100000x1) S5000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64x64.size a ≤ S64x64.size a
  hwx1_4 : ∀ i : grid1.Coords, EltTy.bits .f32 = 32 ∨ (Rect.block (s := S64x64) S64x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x64.size a ≤ S1x64.size a
  hwx1_5 : ∀ i : grid1.Coords, EltTy.bits .f32 = 32 ∨ (Rect.block (s := S1x64) S1x64.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x64.size a ≤ S100000x64.size a
  hwx1_6 : ∀ i : grid1.Coords, EltTy.bits .f32 = 32 ∨ (Rect.block (s := S100000x64) S5000x64.size (cc1_transform_6 i) (hinb1_6 i)).WholeWords (EltTy.packing .f32)

variable [Facts₀]

def dot_S8000x128_S128x64_S8000x64_1_0_0_1_n_n : DotDims S8000x128 S128x64 S8000x64 where
  lhsContracting := [1]
  rhsContracting := [0]
  lhsNonContracting := [0]
  rhsNonContracting := [1]
  lhsBatch := []
  rhsBatch := []
  wf := dot_S8000x128_S128x64_S8000x64_1_0_0_1_n_n_wf
def dot_S8000x64_S64x64_S8000x64_1_0_0_1_n_n : DotDims S8000x64 S64x64 S8000x64 where
  lhsContracting := [1]
  rhsContracting := [0]
  lhsNonContracting := [0]
  rhsNonContracting := [1]
  lhsBatch := []
  rhsBatch := []
  wf := dot_S8000x64_S64x64_S8000x64_1_0_0_1_n_n_wf
def gather_S100000x64_S1200000x1_S1200000x64_1_0_n_n_0_1_164 : GatherDims S100000x64 S1200000x1 S1200000x64 where
  offsetDims := [1]
  collapsedSliceDims := [0]
  operandBatchingDims := []
  startIndicesBatchingDims := []
  startIndexMap := [0]
  indexVectorDim := 1
  sliceSizes := ![1, 64]
  wf := gather_S100000x64_S1200000x1_S1200000x64_1_0_n_n_0_1_164_wf
def scatter_S100000x64_S1200000x1_S1200000x64_1_0_0_1 : ScatterDims S100000x64 S1200000x1 S1200000x64 where
  updateWindowDims := [1]
  insertedWindowDims := [0]
  scatterDimsToOperandDims := [0]
  indexVectorDim := 1
  wf := scatter_S100000x64_S1200000x1_S1200000x64_1_0_0_1_wf
def scatter_S100000_S1200000x1_S1200000_n_0_0_1 : ScatterDims S100000 S1200000x1 S1200000 where
  updateWindowDims := []
  insertedWindowDims := [0]
  scatterDimsToOperandDims := [0]
  indexVectorDim := 1
  wf := scatter_S100000_S1200000x1_S1200000_n_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf

abbrev win0_0 : Pipeline.Window sig grid0 :=
  Pipeline.Window.ofSpec (Memref.whole main_arg0) S8000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S8000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg5) S128x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg7) S64x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v1) S1x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v2) S8000x64.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v13) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v26) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg9) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v27) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg11) S64x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v28) S1x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v29) S5000x64.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S1200000x128 : Shape := ⟨2, ![1200000, 128]⟩
abbrev S1200000x64 : Shape := ⟨2, ![1200000, 64]⟩
abbrev S100000x64 : Shape := ⟨2, ![100000, 64]⟩
abbrev S1200000 : Shape := ⟨1, ![1200000]⟩
abbrev S128x64 : Shape := ⟨2, ![128, 64]⟩
abbrev S64 : Shape := ⟨1, ![64]⟩
abbrev S64x64 : Shape := ⟨2, ![64, 64]⟩
abbrev S1x64 : Shape := ⟨2, ![1, 64]⟩
abbrev S_ : Shape := ⟨0, ![]⟩
abbrev S1200000x1 : Shape := ⟨2, ![1200000, 1]⟩
abbrev S100000x1 : Shape := ⟨2, ![100000, 1]⟩

abbrev nBuf : Space → Nat
  | .hbm => 131
  | .vmem => 0
  | .smem => 0
  | _ => 0

abbrev hbmTy0_0 (i : Nat) : BufTy := match i % 128 with
  | 0 => ⟨S1200000x128, .f32⟩
  | 1 => ⟨S1200000x64, .f32⟩
  | 2 => ⟨S100000x64, .f32⟩
  | 3 => ⟨S1200000, .i32⟩
  | 4 => ⟨S1200000, .i32⟩
  | 5 => ⟨S128x64, .f32⟩
  | 6 => ⟨S64, .f32⟩
  | 7 => ⟨S64x64, .f32⟩
  | 8 => ⟨S64, .f32⟩
  | 9 => ⟨S64x64, .f32⟩
  | 10 => ⟨S64, .f32⟩
  | 11 => ⟨S64x64, .f32⟩
  | 12 => ⟨S64, .f32⟩
  | 13 => ⟨S1200000x64, .f32⟩
  | 14 => ⟨S1x64, .f32⟩
  | 15 => ⟨S1200000x64, .f32⟩
  | 16 => ⟨S1200000x64, .f32⟩
  | 17 => ⟨S_, .f32⟩
  | 18 => ⟨S1200000x64, .f32⟩
  | 19 => ⟨S1200000x64, .f32⟩
  | 20 => ⟨S1200000x64, .f32⟩
  | 21 => ⟨S1200000x64, .f32⟩
  | 22 => ⟨S1200000x64, .i1⟩
  | 23 => ⟨S1200000x64, .f32⟩
  | 24 => ⟨S1200000x64, .f32⟩
  | 25 => ⟨S1200000x64, .f32⟩
  | 26 => ⟨S1200000x64, .f32⟩
  | 27 => ⟨S1200000x64, .f32⟩
  | 28 => ⟨S1200000x64, .f32⟩
  | 29 => ⟨S1200000x64, .f32⟩
  | 30 => ⟨S1200000x64, .f32⟩
  | 31 => ⟨S_, .f32⟩
  | 32 => ⟨S1200000x64, .f32⟩
  | 33 => ⟨S1200000x64, .f32⟩
  | 34 => ⟨S1200000x64, .f32⟩
  | 35 => ⟨S1x64, .f32⟩
  | 36 => ⟨S1200000x64, .f32⟩
  | 37 => ⟨S1200000x64, .f32⟩
  | 38 => ⟨S_, .f32⟩
  | 39 => ⟨S1200000x64, .f32⟩
  | 40 => ⟨S1200000x64, .f32⟩
  | 41 => ⟨S1200000x64, .f32⟩
  | 42 => ⟨S1200000x64, .f32⟩
  | 43 => ⟨S1200000x64, .i1⟩
  | 44 => ⟨S1200000x64, .f32⟩
  | 45 => ⟨S1200000x64, .f32⟩
  | 46 => ⟨S1200000x64, .f32⟩
  | 47 => ⟨S1200000x64, .f32⟩
  | 48 => ⟨S1200000x64, .f32⟩
  | 49 => ⟨S1200000x64, .f32⟩
  | 50 => ⟨S1200000x64, .f32⟩
  | 51 => ⟨S1200000x64, .f32⟩
  | 52 => ⟨S_, .f32⟩
  | 53 => ⟨S1200000x64, .f32⟩
  | 54 => ⟨S1200000x64, .f32⟩
  | 55 => ⟨S1200000x64, .f32⟩
  | 56 => ⟨S_, .i32⟩
  | 57 => ⟨S1200000, .i32⟩
  | 58 => ⟨S1200000, .i1⟩
  | 59 => ⟨S_, .i32⟩
  | 60 => ⟨S1200000, .i32⟩
  | 61 => ⟨S1200000, .i32⟩
  | 62 => ⟨S1200000, .i32⟩
  | 63 => ⟨S1200000x1, .i32⟩
  | 64 => ⟨S1200000x64, .f32⟩
  | 65 => ⟨S1200000x64, .f32⟩
  | 66 => ⟨S_, .f32⟩
  | 67 => ⟨S100000x64, .f32⟩
  | 68 => ⟨S1200000x1, .i32⟩
  | 69 => ⟨S100000x64, .f32⟩
  | 70 => ⟨S_, .f32⟩
  | 71 => ⟨S1200000x1, .f32⟩
  | 72 => ⟨S_, .f32⟩
  | 73 => ⟨S100000x1, .f32⟩
  | 74 => ⟨S1200000x1, .i32⟩
  | 75 => ⟨S100000x1, .f32⟩
  | 76 => ⟨S_, .f32⟩
  | 77 => ⟨S100000x1, .f32⟩
  | 78 => ⟨S100000x1, .i1⟩
  | 79 => ⟨S_, .f32⟩
  | 80 => ⟨S100000x1, .f32⟩
  | 81 => ⟨S100000x1, .f32⟩
  | 82 => ⟨S100000x64, .f32⟩
  | 83 => ⟨S100000x64, .f32⟩
  | 84 => ⟨S_, .f32⟩
  | 85 => ⟨S_, .f32⟩
  | 86 => ⟨S100000x64, .i1⟩
  | 87 => ⟨S100000x64, .f32⟩
  | 88 => ⟨S100000x64, .f32⟩
  | 89 => ⟨S100000x64, .f32⟩
  | 90 => ⟨S1x64, .f32⟩
  | 91 => ⟨S100000x64, .f32⟩
  | 92 => ⟨S100000x64, .f32⟩
  | 93 => ⟨S_, .f32⟩
  | 94 => ⟨S100000x64, .f32⟩
  | 95 => ⟨S100000x64, .f32⟩
  | 96 => ⟨S100000x64, .f32⟩
  | 97 => ⟨S100000x64, .f32⟩
  | 98 => ⟨S100000x64, .i1⟩
  | 99 => ⟨S100000x64, .f32⟩
  | 100 => ⟨S100000x64, .f32⟩
  | 101 => ⟨S100000x64, .f32⟩
  | 102 => ⟨S100000x64, .f32⟩
  | 103 => ⟨S100000x64, .f32⟩
  | 104 => ⟨S100000x64, .f32⟩
  | 105 => ⟨S100000x64, .f32⟩
  | 106 => ⟨S100000x64, .f32⟩
  | 107 => ⟨S_, .f32⟩
  | 108 => ⟨S100000x64, .f32⟩
  | 109 => ⟨S100000x64, .f32⟩
  | 110 => ⟨S100000x64, .f32⟩
  | 111 => ⟨S1x64, .f32⟩
  | 112 => ⟨S100000x64, .f32⟩
  | 113 => ⟨S100000x64, .f32⟩
  | 114 => ⟨S_, .f32⟩
  | 115 => ⟨S100000x64, .f32⟩
  | 116 => ⟨S100000x64, .f32⟩
  | 117 => ⟨S100000x64, .f32⟩
  | 118 => ⟨S100000x64, .f32⟩
  | 119 => ⟨S100000x64, .i1⟩
  | 120 => ⟨S100000x64, .f32⟩
  | 121 => ⟨S100000x64, .f32⟩
  | 122 => ⟨S100000x64, .f32⟩
  | 123 => ⟨S100000x64, .f32⟩
  | 124 => ⟨S100000x64, .f32⟩
  | 125 => ⟨S100000x64, .f32⟩
  | 126 => ⟨S100000x64, .f32⟩
  | 127 => ⟨S100000x64, .f32⟩
  | _ => ⟨S1200000x128, .f32⟩

abbrev hbmTy0_1 (i : Nat) : BufTy := match i % 128 with
  | 0 => ⟨S_, .f32⟩
  | 1 => ⟨S100000x64, .f32⟩
  | 2 => ⟨S100000x64, .f32⟩
  | _ => ⟨S1200000x128, .f32⟩

abbrev hbmTy (i : Nat) : BufTy := match i / 128 with
  | 0 => hbmTy0_0 i
  | 1 => hbmTy0_1 i
  | _ => ⟨S1200000x128, .f32⟩

abbrev bufTy : (tb : Table) → Fin (tcTables nBuf tb) → BufTy
  | .hbm, ⟨i, _⟩ => hbmTy i
  | _, _ => ⟨S1200000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_call0_cst : Ref sig .tc := ⟨.hbm, 17, rfl⟩
abbrev main_call0_v0 : Ref sig .tc := ⟨.hbm, 18, rfl⟩
abbrev main_call0_v1 : Ref sig .tc := ⟨.hbm, 19, rfl⟩
abbrev main_call0_v2 : Ref sig .tc := ⟨.hbm, 20, rfl⟩
abbrev main_call0_v3 : Ref sig .tc := ⟨.hbm, 21, rfl⟩
abbrev main_call0_v4 : Ref sig .tc := ⟨.hbm, 22, rfl⟩
abbrev main_call0_v5 : Ref sig .tc := ⟨.hbm, 23, rfl⟩
abbrev main_call0_v6 : Ref sig .tc := ⟨.hbm, 24, rfl⟩
abbrev main_call0_v7 : Ref sig .tc := ⟨.hbm, 25, rfl⟩
abbrev main_call0_v8 : Ref sig .tc := ⟨.hbm, 26, rfl⟩
abbrev main_call0_v9 : Ref sig .tc := ⟨.hbm, 27, rfl⟩
abbrev main_call0_v10 : Ref sig .tc := ⟨.hbm, 28, rfl⟩
abbrev main_call0_v11 : Ref sig .tc := ⟨.hbm, 29, rfl⟩
abbrev main_v4 : Ref sig .tc := ⟨.hbm, 30, rfl⟩
abbrev main_cst : Ref sig .tc := ⟨.hbm, 31, rfl⟩
abbrev main_v5 : Ref sig .tc := ⟨.hbm, 32, rfl⟩
abbrev main_v6 : Ref sig .tc := ⟨.hbm, 33, rfl⟩
abbrev main_v7 : Ref sig .tc := ⟨.hbm, 34, rfl⟩
abbrev main_v8 : Ref sig .tc := ⟨.hbm, 35, rfl⟩
abbrev main_v9 : Ref sig .tc := ⟨.hbm, 36, rfl⟩
abbrev main_v10 : Ref sig .tc := ⟨.hbm, 37, rfl⟩
abbrev main_call1_cst : Ref sig .tc := ⟨.hbm, 38, rfl⟩
abbrev main_call1_v0 : Ref sig .tc := ⟨.hbm, 39, rfl⟩
abbrev main_call1_v1 : Ref sig .tc := ⟨.hbm, 40, rfl⟩
abbrev main_call1_v2 : Ref sig .tc := ⟨.hbm, 41, rfl⟩
abbrev main_call1_v3 : Ref sig .tc := ⟨.hbm, 42, rfl⟩
abbrev main_call1_v4 : Ref sig .tc := ⟨.hbm, 43, rfl⟩
abbrev main_call1_v5 : Ref sig .tc := ⟨.hbm, 44, rfl⟩
abbrev main_call1_v6 : Ref sig .tc := ⟨.hbm, 45, rfl⟩
abbrev main_call1_v7 : Ref sig .tc := ⟨.hbm, 46, rfl⟩
abbrev main_call1_v8 : Ref sig .tc := ⟨.hbm, 47, rfl⟩
abbrev main_call1_v9 : Ref sig .tc := ⟨.hbm, 48, rfl⟩
abbrev main_call1_v10 : Ref sig .tc := ⟨.hbm, 49, rfl⟩
abbrev main_call1_v11 : Ref sig .tc := ⟨.hbm, 50, rfl⟩
abbrev main_v11 : Ref sig .tc := ⟨.hbm, 51, rfl⟩
abbrev main_cst_0 : Ref sig .tc := ⟨.hbm, 52, rfl⟩
abbrev main_v12 : Ref sig .tc := ⟨.hbm, 53, rfl⟩
abbrev main_v13 : Ref sig .tc := ⟨.hbm, 54, rfl⟩
abbrev main_v14 : Ref sig .tc := ⟨.hbm, 55, rfl⟩
abbrev main_c : Ref sig .tc := ⟨.hbm, 56, rfl⟩
abbrev main_v15 : Ref sig .tc := ⟨.hbm, 57, rfl⟩
abbrev main_v16 : Ref sig .tc := ⟨.hbm, 58, rfl⟩
abbrev main_c_1 : Ref sig .tc := ⟨.hbm, 59, rfl⟩
abbrev main_v17 : Ref sig .tc := ⟨.hbm, 60, rfl⟩
abbrev main_v18 : Ref sig .tc := ⟨.hbm, 61, rfl⟩
abbrev main_v19 : Ref sig .tc := ⟨.hbm, 62, rfl⟩
abbrev main_v20 : Ref sig .tc := ⟨.hbm, 63, rfl⟩
abbrev main_v21 : Ref sig .tc := ⟨.hbm, 64, rfl⟩
abbrev main_v22 : Ref sig .tc := ⟨.hbm, 65, rfl⟩
abbrev main_cst_2 : Ref sig .tc := ⟨.hbm, 66, rfl⟩
abbrev main_v23 : Ref sig .tc := ⟨.hbm, 67, rfl⟩
abbrev main_v24 : Ref sig .tc := ⟨.hbm, 68, rfl⟩
abbrev main_v25 : Ref sig .tc := ⟨.hbm, 69, rfl⟩
abbrev main_cst_3 : Ref sig .tc := ⟨.hbm, 70, rfl⟩
abbrev main_v26 : Ref sig .tc := ⟨.hbm, 71, rfl⟩
abbrev main_cst_4 : Ref sig .tc := ⟨.hbm, 72, rfl⟩
abbrev main_v27 : Ref sig .tc := ⟨.hbm, 73, rfl⟩
abbrev main_v28 : Ref sig .tc := ⟨.hbm, 74, rfl⟩
abbrev main_v29 : Ref sig .tc := ⟨.hbm, 75, rfl⟩
abbrev main_cst_5 : Ref sig .tc := ⟨.hbm, 76, rfl⟩
abbrev main_v30 : Ref sig .tc := ⟨.hbm, 77, rfl⟩
abbrev main_v31 : Ref sig .tc := ⟨.hbm, 78, rfl⟩
abbrev main_cst_6 : Ref sig .tc := ⟨.hbm, 79, rfl⟩
abbrev main_v32 : Ref sig .tc := ⟨.hbm, 80, rfl⟩
abbrev main_v33 : Ref sig .tc := ⟨.hbm, 81, rfl⟩
abbrev main_v34 : Ref sig .tc := ⟨.hbm, 82, rfl⟩
abbrev main_v35 : Ref sig .tc := ⟨.hbm, 83, rfl⟩
abbrev main_cst_7 : Ref sig .tc := ⟨.hbm, 84, rfl⟩
abbrev main_call2_v0 : Ref sig .tc := ⟨.hbm, 85, rfl⟩
abbrev main_call2_v1 : Ref sig .tc := ⟨.hbm, 86, rfl⟩
abbrev main_call2_v2 : Ref sig .tc := ⟨.hbm, 87, rfl⟩
abbrev main_v36 : Ref sig .tc := ⟨.hbm, 88, rfl⟩
abbrev main_v37 : Ref sig .tc := ⟨.hbm, 89, rfl⟩
abbrev main_v38 : Ref sig .tc := ⟨.hbm, 90, rfl⟩
abbrev main_v39 : Ref sig .tc := ⟨.hbm, 91, rfl⟩
abbrev main_v40 : Ref sig .tc := ⟨.hbm, 92, rfl⟩
abbrev main_call3_cst : Ref sig .tc := ⟨.hbm, 93, rfl⟩
abbrev main_call3_v0 : Ref sig .tc := ⟨.hbm, 94, rfl⟩
abbrev main_call3_v1 : Ref sig .tc := ⟨.hbm, 95, rfl⟩
abbrev main_call3_v2 : Ref sig .tc := ⟨.hbm, 96, rfl⟩
abbrev main_call3_v3 : Ref sig .tc := ⟨.hbm, 97, rfl⟩
abbrev main_call3_v4 : Ref sig .tc := ⟨.hbm, 98, rfl⟩
abbrev main_call3_v5 : Ref sig .tc := ⟨.hbm, 99, rfl⟩
abbrev main_call3_v6 : Ref sig .tc := ⟨.hbm, 100, rfl⟩
abbrev main_call3_v7 : Ref sig .tc := ⟨.hbm, 101, rfl⟩
abbrev main_call3_v8 : Ref sig .tc := ⟨.hbm, 102, rfl⟩
abbrev main_call3_v9 : Ref sig .tc := ⟨.hbm, 103, rfl⟩
abbrev main_call3_v10 : Ref sig .tc := ⟨.hbm, 104, rfl⟩
abbrev main_call3_v11 : Ref sig .tc := ⟨.hbm, 105, rfl⟩
abbrev main_v41 : Ref sig .tc := ⟨.hbm, 106, rfl⟩
abbrev main_cst_8 : Ref sig .tc := ⟨.hbm, 107, rfl⟩
abbrev main_v42 : Ref sig .tc := ⟨.hbm, 108, rfl⟩
abbrev main_v43 : Ref sig .tc := ⟨.hbm, 109, rfl⟩
abbrev main_v44 : Ref sig .tc := ⟨.hbm, 110, rfl⟩
abbrev main_v45 : Ref sig .tc := ⟨.hbm, 111, rfl⟩
abbrev main_v46 : Ref sig .tc := ⟨.hbm, 112, rfl⟩
abbrev main_v47 : Ref sig .tc := ⟨.hbm, 113, rfl⟩
abbrev main_call4_cst : Ref sig .tc := ⟨.hbm, 114, rfl⟩
abbrev main_call4_v0 : Ref sig .tc := ⟨.hbm, 115, rfl⟩
abbrev main_call4_v1 : Ref sig .tc := ⟨.hbm, 116, rfl⟩
abbrev main_call4_v2 : Ref sig .tc := ⟨.hbm, 117, rfl⟩
abbrev main_call4_v3 : Ref sig .tc := ⟨.hbm, 118, rfl⟩
abbrev main_call4_v4 : Ref sig .tc := ⟨.hbm, 119, rfl⟩
abbrev main_call4_v5 : Ref sig .tc := ⟨.hbm, 120, rfl⟩
abbrev main_call4_v6 : Ref sig .tc := ⟨.hbm, 121, rfl⟩
abbrev main_call4_v7 : Ref sig .tc := ⟨.hbm, 122, rfl⟩
abbrev main_call4_v8 : Ref sig .tc := ⟨.hbm, 123, rfl⟩
abbrev main_call4_v9 : Ref sig .tc := ⟨.hbm, 124, rfl⟩
abbrev main_call4_v10 : Ref sig .tc := ⟨.hbm, 125, rfl⟩
abbrev main_call4_v11 : Ref sig .tc := ⟨.hbm, 126, rfl⟩
abbrev main_v48 : Ref sig .tc := ⟨.hbm, 127, rfl⟩
abbrev main_cst_9 : Ref sig .tc := ⟨.hbm, 128, rfl⟩
abbrev main_v49 : Ref sig .tc := ⟨.hbm, 129, rfl⟩
abbrev main_v50 : Ref sig .tc := ⟨.hbm, 130, rfl⟩

abbrev nD : Nat := 1
abbrev τ : Topo := Topo.v7x

variable {F : FTy → Type} [FloatOps F]

class Facts₀ : Prop where
  bcast_S64_S1x64_1 : S64.BroadcastsInDim S1x64 (![1] : Fin 1 → Fin S1x64.rank)
  bcast_S1x64_S1200000x64_0_1 : S1x64.BroadcastsInDim S1200000x64 (![0, 1] : Fin 2 → Fin S1200000x64.rank)
  bcast_S_S1200000x64 : S_.BroadcastsInDim S1200000x64 (![] : Fin 0 → Fin S1200000x64.rank)
  bcast_S_S1200000 : S_.BroadcastsInDim S1200000 (![] : Fin 0 → Fin S1200000.rank)
  bcast_S1200000_S1200000x1_0 : S1200000.BroadcastsInDim S1200000x1 (![0] : Fin 1 → Fin S1200000x1.rank)
  bcast_S_S100000x64 : S_.BroadcastsInDim S100000x64 (![] : Fin 0 → Fin S100000x64.rank)
  bcast_S_S1200000x1 : S_.BroadcastsInDim S1200000x1 (![] : Fin 0 → Fin S1200000x1.rank)
  bcast_S_S100000x1 : S_.BroadcastsInDim S100000x1 (![] : Fin 0 → Fin S100000x1.rank)
  bcast_S100000x1_S100000x64_0_1 : S100000x1.BroadcastsInDim S100000x64 (![0, 1] : Fin 2 → Fin S100000x64.rank)
  bcast_S1x64_S100000x64_0_1 : S1x64.BroadcastsInDim S100000x64 (![0, 1] : Fin 2 → Fin S100000x64.rank)
  dot_S1200000x128_S128x64_S1200000x64_1_0_0_1_n_n_wf : DotDims.WF S1200000x128 S128x64 S1200000x64 [1] [0] [0] [1] [] []
  dot_S1200000x64_S64x64_S1200000x64_1_0_0_1_n_n_wf : DotDims.WF S1200000x64 S64x64 S1200000x64 [1] [0] [0] [1] [] []
  gather_S100000x64_S1200000x1_S1200000x64_1_0_n_n_0_1_164_wf : GatherDims.WF S100000x64 S1200000x1 S1200000x64 [1] [0] [] [0] [] 1 ![1, 64]
  scatter_S100000x64_S1200000x1_S1200000x64_1_0_0_1_wf : ScatterDims.WF S100000x64 S1200000x1 S1200000x64 [1] [0] [0] 1
  scatter_S100000x1_S1200000x1_S1200000x1_1_0_0_1_wf : ScatterDims.WF S100000x1 S1200000x1 S1200000x1 [1] [0] [0] 1
  dot_S100000x64_S64x64_S100000x64_1_0_0_1_n_n_wf : DotDims.WF S100000x64 S64x64 S100000x64 [1] [0] [0] [1] [] []

variable [Facts₀]

def dot_S1200000x128_S128x64_S1200000x64_1_0_0_1_n_n : DotDims S1200000x128 S128x64 S1200000x64 where
  lhsContracting := [1]
  rhsContracting := [0]
  lhsNonContracting := [0]
  rhsNonContracting := [1]
  lhsBatch := []
  rhsBatch := []
  wf := dot_S1200000x128_S128x64_S1200000x64_1_0_0_1_n_n_wf
def dot_S1200000x64_S64x64_S1200000x64_1_0_0_1_n_n : DotDims S1200000x64 S64x64 S1200000x64 where
  lhsContracting := [1]
  rhsContracting := [0]
  lhsNonContracting := [0]
  rhsNonContracting := [1]
  lhsBatch := []
  rhsBatch := []
  wf := dot_S1200000x64_S64x64_S1200000x64_1_0_0_1_n_n_wf
def gather_S100000x64_S1200000x1_S1200000x64_1_0_n_n_0_1_164 : GatherDims S100000x64 S1200000x1 S1200000x64 where
  offsetDims := [1]
  collapsedSliceDims := [0]
  operandBatchingDims := []
  startIndicesBatchingDims := []
  startIndexMap := [0]
  indexVectorDim := 1
  sliceSizes := ![1, 64]
  wf := gather_S100000x64_S1200000x1_S1200000x64_1_0_n_n_0_1_164_wf
def scatter_S100000x64_S1200000x1_S1200000x64_1_0_0_1 : ScatterDims S100000x64 S1200000x1 S1200000x64 where
  updateWindowDims := [1]
  insertedWindowDims := [0]
  scatterDimsToOperandDims := [0]
  indexVectorDim := 1
  wf := scatter_S100000x64_S1200000x1_S1200000x64_1_0_0_1_wf
def scatter_S100000x1_S1200000x1_S1200000x1_1_0_0_1 : ScatterDims S100000x1 S1200000x1 S1200000x1 where
  updateWindowDims := [1]
  insertedWindowDims := [0]
  scatterDimsToOperandDims := [0]
  indexVectorDim := 1
  wf := scatter_S100000x1_S1200000x1_S1200000x1_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf

class Facts : Prop extends Facts₀ where

variable [Facts]
-- ==== Proof.KernelRun.lean ====
/-
  The idealized kernel's run with its result named.

  @main is six segments: a stretch of host operations, the edge kernel's grid, three stretches of host operations
  (the gather, the two segment sums, the guarded reciprocal), and the node kernel's grid. Every weakly fair execution
  ends with each unscoped buffer at the contents the last segment leaves; here that is read at the result buffer
  as well as at the thirteen arguments, so that the result is the node kernel's output array after its last
  write-back.
-/
import proofs.«135877_j54176717472000_2_alg».proof.Proof.Gen.KernelIdeal.Frame

set_option maxRecDepth 16384

noncomputable section

namespace Cert.KernelIdeal.RunV

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates without a fault; the result buffer ends at what the node
    kernel's pipeline leaves in it, and the argument arrays end as launched. -/
theorem run_main : θ_run defs (onTc (τ := τ) (main (F := F))) ⟨m, fun _ => 0, ρ⟩ (fun r => ∀ c : Dev nD,
      r.2.mem ((c.tc : Thread nD τ).loc main_v29) = W6 m ρ c (Proc.devRef .tc main_v29)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v29 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c),
       (h c _ (mem_uc main_arg8 (by decide))).trans (W6_main_arg8 m ρ c),
       (h c _ (mem_uc main_arg9 (by decide))).trans (W6_main_arg9 m ρ c),
       (h c _ (mem_uc main_arg10 (by decide))).trans (W6_main_arg10 m ρ c),
       (h c _ (mem_uc main_arg11 (by decide))).trans (W6_main_arg11 m ρ c),
       (h c _ (mem_uc main_arg12 (by decide))).trans (W6_main_arg12 m ρ c)⟩)

end Cert.KernelIdeal.RunV

end
-- ==== Proof.Spec.lean ====
/-
  The mathematics both programs compute, one row at a time.

  A message-passing layer: every edge `e` carries a filter `ssp (ssp (bf e · W1 + b1) · W2 + b2)`, gated entry by
  entry by the edge's features; the source node's features times that filter are summed over the edges that end at
  a node and divided by their number (zero where there is none); two more affine layers, each followed by `ssp`,
  act on every node's row. `ssp z` is the shifted softplus `max z 0 + log (1 + exp (−|z|)) − c` with `c` the
  binary32 nearest to log 2, written here exactly as the host spells it (the subtraction and the addition of the zero
  word, and the test `d ≠ d` that never fires on the extended reals, are kept so that the host's term is this one by
  unfolding).
-/
import Idealize.ShloMosaic.PureOps.Ideal
import Idealize.ShloMosaic.PureOps.Ideal.Laws
import Idealize.ShloMosaic.Lib.IdealHost
import Idealize.ShloMosaic.Lib.ValueIdx

open scoped BigOperators

noncomputable section

namespace Cert.Schnet

open Idealize.ShloMosaic

/-- The zero word, the word of one, and the word nearest to log 2, as extended reals. -/
abbrev z0 : EReal := Ideal.ofBits .f32 0x00000000#32
abbrev one1 : EReal := Ideal.ofBits .f32 0x3F800000#32
abbrev ln2 : EReal := Ideal.ofBits .f32 0x3F317218#32

theorem z0_eq : z0 = 0 := Ideal.ofBits_zero_f32
theorem one1_eq : one1 = 1 := Ideal.ofBits_one_f32

/-- The shifted softplus, in the host's spelling. -/
def ssp (z : EReal) : EReal :=
  Scalar.select (Ideal.cmp .une (z - z0) (z - z0)) (z + z0)
    (max z z0 + Ideal.log1p (Ideal.exp (-(max (z - z0) (-(z - z0)))))) - ln2

/-- The kernel's spelling of it — the ordered test, and `0 − |d|` for `−|d|` — is the same number. -/
theorem ssp_kernel (z : EReal) :
    Scalar.select (Ideal.cmp .one (z - z0) (z - z0)) (z + z0)
      (max z z0 + Ideal.log1p (Ideal.exp (z0 - (max (z - z0) (-(z - z0)))))) - ln2 = ssp z := by
  unfold ssp
  have h : z0 - (max (z - z0) (-(z - z0))) = -(max (z - z0) (-(z - z0))) := by rw [z0_eq, zero_sub]
  rw [h]
  rfl

/-- `n` ones add up to the real `n`. -/
theorem nsmul_one_ereal (n : ℕ) : n • (1 : EReal) = ((n : ℝ) : EReal) := by
  induction n with
  | zero => simp
  | succ k ih => rw [succ_nsmul, ih, Nat.cast_succ, EReal.coe_add, EReal.coe_one]

/-- One affine layer on a row: `r · W + b` at column `q`. -/
def linRow {K B : Nat} (r : Fin K → EReal) (W : Fin K → Fin B → EReal) (b : Fin B → EReal) (q : Fin B) : EReal :=
  (∑ k : Fin K, r k * W k q) + b q

/-- Two affine layers, each followed by the shifted softplus, on a row. -/
def mlpRow {K B C : Nat} (r : Fin K → EReal) (W1 : Fin K → Fin B → EReal) (b1 : Fin B → EReal)
    (W2 : Fin B → Fin C → EReal) (b2 : Fin C → EReal) (q : Fin C) : EReal :=
  ssp (linRow (fun k => ssp (linRow r W1 b1 k)) W2 b2 q)

/-- THE MEAN OF A SEGMENT, TWO WAYS. With `n` the number of edges that end at a node and `s` the sum of their
    messages: multiplying `s` by the guarded reciprocal (`1 / max n 1` where `n > 0`, else `0`) is dividing `s` by
    `max n 1` where `n > 0` and taking `0` elsewhere. For `n = 0` both are `0` (a product with zero is zero on the
    extended reals whatever `s` is); for `n ≥ 1` the divisor is the nonzero real `n`, and dividing by it is
    multiplying by its reciprocal, at every extended real `s`. -/
theorem mean_two_ways (s : EReal) (n : ℕ) :
    s * Scalar.select (Ideal.cmp .ogt (((n : ℝ) : EReal)) z0) (Ideal.div one1 (max (((n : ℝ) : EReal)) one1)) z0
      = Scalar.select (Ideal.cmp .ogt (((n : ℝ) : EReal)) z0) (Ideal.div s (max (((n : ℝ) : EReal)) one1)) z0 := by
  rw [z0_eq, one1_eq]
  rcases Nat.eq_zero_or_pos n with hn | hn
  · subst hn
    have hc : Ideal.cmp .ogt (((0 : ℕ) : ℝ) : EReal) 0 = 0#1 := by
      simp [Ideal.cmp]
    rw [hc, ValueIdx.select_zero, ValueIdx.select_zero, mul_zero]
  · have hpos : (0 : EReal) < ((n : ℝ) : EReal) := by exact_mod_cast hn
    have hc : Ideal.cmp .ogt (((n : ℝ) : EReal)) 0 = 1#1 := by
      simp [Ideal.cmp, hn]
    have hmax : max (((n : ℝ) : EReal)) 1 = ((n : ℝ) : EReal) := by
      apply max_eq_left
      have : (1 : ℝ) ≤ (n : ℝ) := by exact_mod_cast hn
      exact_mod_cast this
    have hne : (n : ℝ) ≠ 0 := by exact_mod_cast (Nat.pos_iff_ne_zero.mp hn)
    rw [hc, ValueIdx.select_one, ValueIdx.select_one, hmax, Ideal.div_coe hne, Ideal.div_coe hne, one_mul]

end Cert.Schnet

end
-- ==== Proof.LibPlainDot.lean ====
/-
  A rows-by-columns contraction read as a plain sum.

  Take operands of shapes [A, K] and [K, B] and a result of shape [A, B], with dimension numbers that say: no batch
  axes; the left operand keeps its axis 0 and the right its axis 1; axis 1 of the left is contracted against axis 0 of
  the right. The contraction's own index set is then a one-axis shape of extent K, and the sum over it of
  `x (left index) * y (right index)` at the result index (p, q) is `∑ k < K, x (p, k) * y (k, q)`: on its kept axis
  each operand reads the result's coordinate, on its contracted axis the contraction's one coordinate.

  Stated for ANY record with these dimension numbers and for any A, K, B, so the same lemma reads a matrix product
  of one block and a `dot_general` of a whole array. The extended reals enter only as the type the products are
  taken in: nothing here uses more than the sum's re-indexing along a bijection.
-/
import Idealize.ShloMosaic.Lib.ValueIdx
import Idealize.ShloMosaic.PureOps.Ideal.Laws

open scoped BigOperators

namespace Cert.PlainDot

open Idealize.ShloMosaic Idealize.ShloMosaic.ValueIdx

variable {A K B : Nat} (d : DotDims ⟨2, ![A, K]⟩ ⟨2, ![K, B]⟩ ⟨2, ![A, B]⟩)

/-- One index read at two spellings of one position gives one number. -/
theorem val_at_eq {s : Shape} (j : s.Idx) (u v : Nat) (hu : u < s.rank) (hv : v < s.rank) (h : u = v) :
    (j ⟨u, hu⟩).val = (j ⟨v, hv⟩).val := by
  subst h; rfl

/-- On its kept axis (axis 0) the left operand's index is the result's row coordinate: with no batch axis, the
    left operand's one kept axis is the result's axis 0. -/
theorem lhs_row (hlb : d.lhsBatch = []) (hln : d.lhsNonContracting = [0])
    (j : (⟨2, ![A, B]⟩ : Shape).Idx) (k : d.contr.Idx) : (d.lhsIdx j k 0).val = (j 0).val := by
  unfold DotDims.lhsIdx
  rw [dif_neg (by rw [hlb]; exact List.not_mem_nil), dif_pos (by rw [hln]; exact List.mem_singleton.mpr rfl)]
  show (j ⟨_, _⟩).val = (j ⟨0, _⟩).val
  exact val_at_eq j _ _ _ _ (by simp [hlb, hln])

/-- On its kept axis (axis 1) the right operand's index is the result's column coordinate: the result's axes are
    the batch axes (none), then the left's kept axes (one), then the right's kept axes, so this one is axis 1. -/
theorem rhs_col (hlb : d.lhsBatch = []) (hln : d.lhsNonContracting = [0]) (hrb : d.rhsBatch = [])
    (hrn : d.rhsNonContracting = [1]) (j : (⟨2, ![A, B]⟩ : Shape).Idx) (k : d.contr.Idx) :
    (d.rhsIdx j k 1).val = (j 1).val := by
  unfold DotDims.rhsIdx
  rw [dif_neg (by rw [hrb]; exact List.not_mem_nil), dif_pos (by rw [hrn]; exact List.mem_singleton.mpr rfl)]
  show (j ⟨_, _⟩).val = (j ⟨1, _⟩).val
  exact val_at_eq j _ _ _ _ (by simp [hlb, hln, hrn])

/-- THE SUM: over the contraction's index set, the products of the operands at the record's operand indices are the
    products along row `p` of the left and column `q` of the right. -/
theorem sum_eq (hlb : d.lhsBatch = []) (hln : d.lhsNonContracting = [0]) (hlc : d.lhsContracting = [1])
    (hrb : d.rhsBatch = []) (hrn : d.rhsNonContracting = [1]) (hrc : d.rhsContracting = [0])
    (hr : d.contr.rank = 1) (hs : d.contr.size ⟨0, by omega⟩ = K)
    (x : (⟨2, ![A, K]⟩ : Shape).Idx → EReal) (y : (⟨2, ![K, B]⟩ : Shape).Idx → EReal) (p : Fin A) (q : Fin B) :
    ∑ k : d.contr.Idx, x (d.lhsIdx (ix2 p q) k) * y (d.rhsIdx (ix2 p q) k) = ∑ k : Fin K, x (ix2 p k) * y (ix2 k q) := by
  rw [← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact lhs_row d hlb hln _ _
    | ⟨1, _⟩ => exact (d.lhsIdx_val_of_single hlc _ _).trans hk)
  have er : d.rhsIdx (ix2 p q) ((contrEquiv1 d K hr hs).symm k) = ix2 k q := funext fun a => Fin.ext (by
    match a with
    | ⟨0, _⟩ => exact (d.rhsIdx_val_of_single hrc _ _).trans hk
    | ⟨1, _⟩ => exact rhs_col d hlb hln hrb hrn _ _)
  rw [el, er]

end Cert.PlainDot
-- ==== Proof.LibDotRowRow.lean ====
/-
  A contraction of the SECOND axes of two matrices, read as a plain sum.

  Take operands of shapes [A, K] and [B, K] and a result of shape [A, B], with dimension numbers that say: no batch
  axes; each operand keeps its axis 0; axis 1 of the left is contracted against axis 1 of the right (the product of the
  left matrix with the TRANSPOSE of the right one, without the transpose being formed). The contraction's own index set
  is then a one-axis shape of extent K, and the sum over it of x (left index) * y (right index) at the result index
  (p, q) is ∑ k < K, x (p, k) * y (q, k): on its kept axis each operand reads the result's coordinate (the left the row
  coordinate, the right the column coordinate), on its contracted axis the contraction's one coordinate.

  Stated for ANY record with these dimension numbers and for any A, K, B. The extended reals enter only as the type the
  products are taken in: nothing here uses more than the sum's re-indexing along a bijection.
-/
import Idealize.ShloMosaic.Lib.ValueIdx
import Idealize.ShloMosaic.PureOps.Ideal.Laws

open scoped BigOperators

namespace Cert.RowRowDot

open Idealize.ShloMosaic Idealize.ShloMosaic.ValueIdx

variable {A K B : Nat} (d : DotDims ⟨2, ![A, K]⟩ ⟨2, ![B, K]⟩ ⟨2, ![A, B]⟩)

/-- One index read at two spellings of one position gives one number. -/
theorem val_at_eq {s : Shape} (j : s.Idx) (u v : Nat) (hu : u < s.rank) (hv : v < s.rank) (h : u = v) :
    (j ⟨u, hu⟩).val = (j ⟨v, hv⟩).val := by
  subst h; rfl

/-- On its kept axis (axis 0) the left operand's index is the result's row coordinate. -/
theorem lhs_row (hlb : d.lhsBatch = []) (hln : d.lhsNonContracting = [0])
    (j : (⟨2, ![A, B]⟩ : Shape).Idx) (k : d.contr.Idx) : (d.lhsIdx j k 0).val = (j 0).val := by
  unfold DotDims.lhsIdx
  rw [dif_neg (by rw [hlb]; exact List.not_mem_nil), dif_pos (by rw [hln]; exact List.mem_singleton.mpr rfl)]
  show (j ⟨_, _⟩).val = (j ⟨0, _⟩).val
  exact val_at_eq j _ _ _ _ (by simp [hlb, hln])

/-- On its kept axis (axis 0) the right operand's index is the result's COLUMN coordinate: the result's axes are the
    batch axes (none), then the left's kept axes (one), then the right's kept axes, so the right's kept axis is axis 1
    of the result. -/
theorem rhs_row (hlb : d.lhsBatch = []) (hln : d.lhsNonContracting = [0]) (hrb : d.rhsBatch = [])
    (hrn : d.rhsNonContracting = [0]) (j : (⟨2, ![A, B]⟩ : Shape).Idx) (k : d.contr.Idx) :
    (d.rhsIdx j k 0).val = (j 1).val := by
  unfold DotDims.rhsIdx
  rw [dif_neg (by rw [hrb]; exact List.not_mem_nil), dif_pos (by rw [hrn]; exact List.mem_singleton.mpr rfl)]
  show (j ⟨_, _⟩).val = (j ⟨1, _⟩).val
  exact val_at_eq j _ _ _ _ (by simp [hlb, hln, hrn])

/-- THE SUM: over the contraction's index set, the products of the operands at the record's operand indices are the
    products along row p of the left and row q of the right. -/
theorem sum_eq (hlb : d.lhsBatch = []) (hln : d.lhsNonContracting = [0]) (hlc : d.lhsContracting = [1])
    (hrb : d.rhsBatch = []) (hrn : d.rhsNonContracting = [0]) (hrc : d.rhsContracting = [1])
    (hr : d.contr.rank = 1) (hs : d.contr.size ⟨0, by omega⟩ = K)
    (x : (⟨2, ![A, K]⟩ : Shape).Idx → EReal) (y : (⟨2, ![B, K]⟩ : Shape).Idx → EReal) (p : Fin A) (q : Fin B) :
    ∑ k : d.contr.Idx, x (d.lhsIdx (ix2 p q) k) * y (d.rhsIdx (ix2 p q) k) = ∑ k : Fin K, x (ix2 p k) * y (ix2 q k) := by
  rw [← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact lhs_row d hlb hln _ _
    | ⟨1, _⟩ => exact (d.lhsIdx_val_of_single hlc _ _).trans hk)
  have er : d.rhsIdx (ix2 p q) ((contrEquiv1 d K hr hs).symm k) = ix2 q k := funext fun a => Fin.ext (by
    match a with
    | ⟨0, _⟩ => exact rhs_row d hlb hln hrb hrn _ _
    | ⟨1, _⟩ => exact (d.rhsIdx_val_of_single hrc _ _).trans hk)
  rw [el, er]

end Cert.RowRowDot
-- ==== Proof.LibZeroAccDots.lean ====
/-
  Two matrix products into a zero accumulator, read at an index as plain sums, for operands of any float formats.

  At the ideal values a matrix product unit adds, to the accumulator's entry, the sum over the contraction's index set of
  the products of the operands' entries; the operands' float formats play no part, every float being an extended real.
  When the accumulator is the zero splat there is no accumulator term, and for the two common two-dimensional shapes the
  contraction's index set is one axis of extent K:

    rows by columns,  [A, K] × [K, B] → [A, B]  (left axis 1 against right axis 0):  the entry at (p, q) is
      ∑ k < K, x (p, k) · y (k, q);
    rows by rows,     [A, K] × [B, K] → [A, B]  (left axis 1 against right axis 1, the product with the transposed right
      matrix, no transpose formed):                                                   the entry at (p, q) is
      ∑ k < K, x (p, k) · y (q, k).

  Both are stated for ANY record with those dimension numbers, any contraction precision, and any pair of operand formats
  (a product of two bf16 matrices into an f32 accumulator is the usual case).
-/
import proofs.«135877_j54176717472000_2_alg».proof.Proof.LibPlainDot
import proofs.«135877_j54176717472000_2_alg».proof.Proof.LibDotRowRow
import Idealize.ShloMosaic.PureOps.Ideal.Laws
import Idealize.ShloMosaic.Lib.ValueIdx

open scoped BigOperators

namespace Cert.ZeroAccDots

open Idealize.ShloMosaic Idealize.ShloMosaic.ValueIdx

/-- Rows by columns into the zero splat, at `(p, q)`: the plain sum along row `p` of the left operand and column `q`
    of the right. -/
theorem rows_columns {A K B : Nat} {φ₁ φ₂ : FTy} (d : DotDims ⟨2, ![A, K]⟩ ⟨2, ![K, B]⟩ ⟨2, ![A, B]⟩)
    (hlb : d.lhsBatch = []) (hln : d.lhsNonContracting = [0]) (hlc : d.lhsContracting = [1])
    (hrb : d.rhsBatch = []) (hrn : d.rhsNonContracting = [1]) (hrc : d.rhsContracting = [0])
    (hr : d.contr.rank = 1) (hs : d.contr.size ⟨0, by omega⟩ = K) (prec : Option ContractPrecision)
    (x : FVec Ideal ⟨2, ![A, K]⟩ φ₁) (y : FVec Ideal ⟨2, ![K, B]⟩ φ₂) (p : Fin A) (q : Fin B) :
    FloatOps.matmul d prec x y (constant (F := Ideal) ⟨2, ![A, B]⟩ .f32 0x00000000#32) (ix2 p q)
      = ∑ k : Fin K, x (ix2 p k) * y (ix2 k q) :=
  (Ideal.matmul_constant_zero_apply d prec x y (ix2 p q)).trans
    (Cert.PlainDot.sum_eq d hlb hln hlc hrb hrn hrc hr hs x y p q)

/-- Rows by rows into the zero splat, at `(p, q)`: the plain sum along row `p` of the left operand and row `q` of the
    right. -/
theorem rows_rows {A K B : Nat} {φ₁ φ₂ : FTy} (d : DotDims ⟨2, ![A, K]⟩ ⟨2, ![B, K]⟩ ⟨2, ![A, B]⟩)
    (hlb : d.lhsBatch = []) (hln : d.lhsNonContracting = [0]) (hlc : d.lhsContracting = [1])
    (hrb : d.rhsBatch = []) (hrn : d.rhsNonContracting = [0]) (hrc : d.rhsContracting = [1])
    (hr : d.contr.rank = 1) (hs : d.contr.size ⟨0, by omega⟩ = K) (prec : Option ContractPrecision)
    (x : FVec Ideal ⟨2, ![A, K]⟩ φ₁) (y : FVec Ideal ⟨2, ![B, K]⟩ φ₂) (p : Fin A) (q : Fin B) :
    FloatOps.matmul d prec x y (constant (F := Ideal) ⟨2, ![A, B]⟩ .f32 0x00000000#32) (ix2 p q)
      = ∑ k : Fin K, x (ix2 p k) * y (ix2 q k) :=
  (Ideal.matmul_constant_zero_apply d prec x y (ix2 p q)).trans
    (Cert.RowRowDot.sum_eq d hlb hln hlc hrb hrn hrc hr hs x y p q)

end Cert.ZeroAccDots
-- ==== Proof.Layers.lean ====
/-
  One affine layer and one shifted softplus of a kernel tile, read at an entry.

  A tile's layer is a matrix product into the zero tile plus a bias row repeated down the rows: at `(p, q)` it is the
  plain sum along row `p` of the left tile and column `q` of the right one, plus the bias at `q`. The kernel's
  shifted softplus of a tile, entry by entry, is the number `ssp` of the entry. Stated for tiles of any extents.
-/
import proofs.«135877_j54176717472000_2_alg».proof.Proof.Spec
import proofs.«135877_j54176717472000_2_alg».proof.Proof.LibZeroAccDots
import Idealize.ShloMosaic.Lib.ValueLayout
import Idealize.ShloMosaic.Lib.Pipeline.Value

open scoped BigOperators

noncomputable section

namespace Cert.Schnet

open Idealize.ShloMosaic Idealize.ShloMosaic.ValueIdx

/-- A matrix product into the zero tile plus a `[1, B]` bias row repeated down the rows, at `(p, q)`. -/
theorem layer_at {A K B : Nat} {φ₁ φ₂ : FTy} (d : DotDims ⟨2, ![A, K]⟩ ⟨2, ![K, B]⟩ ⟨2, ![A, B]⟩)
    (hlb : d.lhsBatch = []) (hln : d.lhsNonContracting = [0]) (hlc : d.lhsContracting = [1])
    (hrb : d.rhsBatch = []) (hrn : d.rhsNonContracting = [1]) (hrc : d.rhsContracting = [0])
    (hr : d.contr.rank = 1) (hs : d.contr.size ⟨0, by omega⟩ = K)
    (X : FVec Ideal ⟨2, ![A, K]⟩ φ₁) (Y : FVec Ideal ⟨2, ![K, B]⟩ φ₂) (bv : FVec Ideal ⟨2, ![1, B]⟩ .f32)
    (hsc : (⟨2, ![1, B]⟩ : Shape).ShapeCasts ⟨2, ![1, B]⟩) (hb : (⟨2, ![1, B]⟩ : Shape).Broadcasts ⟨2, ![A, B]⟩)
    (p : Fin A) (q : Fin B) :
    addf (matmul d none X Y (constant (F := Ideal) ⟨2, ![A, B]⟩ .f32 0x00000000#32))
        (broadcastTo ⟨2, ![A, B]⟩ (shapeCast ⟨2, ![1, B]⟩ bv hsc) hb) (ix2 p q)
      = linRow (fun k => X (ix2 p k)) (fun k j => Y (ix2 k j)) (fun j => bv (ix2 (0 : Fin 1) j)) q := by
  rw [addf_apply, shapeCast_self, broadcastTo_1b_ab_apply]
  unfold linRow
  congr 1
  exact Cert.ZeroAccDots.rows_columns d hlb hln hlc hrb hrn hrc hr hs none X Y p q

/-- The kernel's shifted softplus of a tile `h`, at an entry. -/
theorem sspTile_at {s : Shape} (h : FVec Ideal s .f32) (i : s.Idx) :
    subf (select (cmpf .one (subf h (broadcast s (Scalar.ofBits (F := Ideal) .f32 0x00000000#32)))
            (subf h (broadcast s (Scalar.ofBits (F := Ideal) .f32 0x00000000#32))))
          (addf h (broadcast s (Scalar.ofBits (F := Ideal) .f32 0x00000000#32)))
          (addf (maximumf h (broadcast s (Scalar.ofBits (F := Ideal) .f32 0x00000000#32)))
            (log1p (exp (subf (broadcast s (Scalar.ofBits (F := Ideal) .f32 0x00000000#32))
              (absf (subf h (broadcast s (Scalar.ofBits (F := Ideal) .f32 0x00000000#32)))))))))
        (broadcast s (Scalar.ofBits (F := Ideal) .f32 0x3F317218#32)) i
      = ssp (h i) :=
  ssp_kernel (h i)

end Cert.Schnet

end
-- ==== Proof.Edge.lean ====
/-
  The edge kernel's output array.

  The grid has 150 points; point `t` reads rows `8000 t … 8000 t + 7999` of the radial features and of the edge
  features, the whole of both weight matrices and both bias rows, and writes the same rows of the output. Row `p`
  of the tile it writes is the filter of edge `8000 t + p` — two affine layers, each followed by the shifted
  softplus, of that edge's radial features — times the edge's features, entry by entry; it depends on no other
  row. The 150 blocks tile the output array, so after the last write-back the array is that function of the whole
  arrays, row by row (`final`).
-/
import proofs.«135877_j54176717472000_2_alg».proof.Proof.Gen.KernelIdeal.Frame
import proofs.«135877_j54176717472000_2_alg».proof.Proof.Layers

set_option maxRecDepth 16384

open scoped BigOperators

noncomputable section

namespace Cert.KernelIdeal.EdgeValue

open Cert.KernelIdeal Cert.KernelIdeal.Gen Cert.Schnet
open Idealize.ShloMosaic Idealize.ShloMosaic.TcCoe Idealize.ShloMosaic.ValueIdx
open Idealize.SL Idealize.SL.Sem
open Idealize.ShloMosaic.Pipeline (Dat Cfg Window)

theorem hz : (![0, 0] : Fin 2 → Nat) = fun _ => 0 := funext fun a => by fin_cases a <;> rfl

/-- Entry `(e, d)` of the gated filter: the two-layer filter of edge `e`'s radial features at column `d`, times the
    edge's feature there. The biases are read off `[1, 64]` rows, as the kernel holds them. -/
def edgeEntry (a0 : S1200000x128.Idx → EReal) (a1 : S1200000x64.Idx → EReal) (a2 : S128x64.Idx → EReal)
    (a3 : S1x64.Idx → EReal) (a4 : S64x64.Idx → EReal) (a5 : S1x64.Idx → EReal) (e : Fin 1200000) (d : Fin 64) : EReal :=
  mlpRow (fun j : Fin 128 => a0 (ix2 e j)) (fun (j : Fin 128) (k : Fin 64) => a2 (ix2 j k)) (fun k : Fin 64 => a3 (ix2 (0 : Fin 1) k))
    (fun (k : Fin 64) (d' : Fin 64) => a4 (ix2 k d')) (fun d' : Fin 64 => a5 (ix2 (0 : Fin 1) d')) d * a1 (ix2 e d)

/-- The gated filter as an array. -/
def G0 (a0 : S1200000x128.Idx → EReal) (a1 : S1200000x64.Idx → EReal) (a2 : S128x64.Idx → EReal)
    (a3 : S1x64.Idx → EReal) (a4 : S64x64.Idx → EReal) (a5 : S1x64.Idx → EReal) : S1200000x64.Idx → EReal :=
  fun i => edgeEntry a0 a1 a2 a3 a4 a5 ⟨(i 0).val, (i 0).isLt⟩ ⟨(i 1).val, (i 1).isLt⟩

theorem G0_apply (a0 : S1200000x128.Idx → EReal) (a1 : S1200000x64.Idx → EReal) (a2 : S128x64.Idx → EReal)
    (a3 : S1x64.Idx → EReal) (a4 : S64x64.Idx → EReal) (a5 : S1x64.Idx → EReal) (e : Fin 1200000) (d : Fin 64) :
    G0 a0 a1 a2 a3 a4 a5 (ix2 e d) = edgeEntry a0 a1 a2 a3 a4 a5 e d := rfl

/-- The second layer's value before its softplus, at entry `(p, q)` of a tile. -/
theorem pay2_at (v0 : Vec Ideal S8000x128 .f32) (v2 : Vec Ideal S128x64 .f32) (v5 : Vec Ideal S1x64 .f32)
    (v26 : Vec Ideal S64x64 .f32) (v29 : Vec Ideal S1x64 .f32) (p : Fin 8000) (q : Fin 64) :
    k0_pay2 (F := Ideal) v0 v2 v5 v26 v29 (ix2 p q)
      = linRow (fun k : Fin 64 => ssp (linRow (fun j : Fin 128 => v0 (ix2 p j)) (fun (j : Fin 128) (k : Fin 64) => v2 (ix2 j k))
            (fun k : Fin 64 => v5 (ix2 (0 : Fin 1) k)) k))
          (fun (k : Fin 64) (d : Fin 64) => v26 (ix2 k d)) (fun d : Fin 64 => v29 (ix2 (0 : Fin 1) d)) q := by
  unfold k0_pay2
  rw [layer_at dot_S8000x64_S64x64_S8000x64_1_0_0_1_n_n rfl rfl rfl rfl rfl rfl rfl rfl]
  refine congrArg (fun r => linRow r _ _ q) (funext fun k => ?_)
  rw [truncf_apply, sspTile_at, layer_at dot_S8000x128_S128x64_S8000x64_1_0_0_1_n_n rfl rfl rfl rfl rfl rfl rfl rfl]
  rfl

/-- THE TILE THE BODY WRITES, at entry `(p, q)`. -/
theorem out_at (x0 : Vec Ideal S8000x128 .f32) (x1 : Vec Ideal S8000x64 .f32) (x2 : Vec Ideal S128x64 .f32)
    (x3 : Vec Ideal S1x64 .f32) (x4 : Vec Ideal S64x64 .f32) (x5 : Vec Ideal S1x64 .f32) (p : Fin 8000) (q : Fin 64) :
    out0_6 (F := Ideal) x0 x1 x2 x3 x4 x5 (ix2 p q)
      = mlpRow (fun j : Fin 128 => x0 (ix2 p j)) (fun (j : Fin 128) (k : Fin 64) => x2 (ix2 j k)) (fun k : Fin 64 => x3 (ix2 (0 : Fin 1) k))
          (fun (k : Fin 64) (d : Fin 64) => x4 (ix2 k d)) (fun d : Fin 64 => x5 (ix2 (0 : Fin 1) d)) q * x1 (ix2 p q) := by
  unfold out0_6
  rw [View.canon_unit_zero hz]
  simp only [View.ld_unit_zero (S := S8000x128) hz, View.ld_unit_zero (S := S128x64) hz, View.ld_unit_zero (S := S1x64) hz,
    View.ld_unit_zero (S := S64x64) hz, View.ld_unit_zero (S := S8000x64) hz]
  unfold k0_pay1 k0_pay3 k0_pay5 k0_pay6 k0_pay7 k0_pay8 k0_pay4
  rw [mulf_apply, sspTile_at, pay2_at]
  rfl

/-! ## From tiles to the array -/

section Final

variable (V : (c : Dev nD) → (b : Ref sig .tc) → Buf (Elt Ideal) ((c : Thread nD τ).loc b))

/-- The printed index maps, decided once over the grid: the row-blocked windows are at block `t` at point `t`, the
    weights and bias rows at their one block. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-- WHAT POINT `t` WRITES BACK is block `t` of the array function of the arrays as the kernel finds them: row `p` of
    the tile is row `8000 t + p` of each row-blocked array, and the weights and bias rows are read whole. -/
theorem flushed_eq (c : Dev nD) (t : Fin cfg0.N) :
    (dat0 V c).flushed 6 t = ((cfg0.win 6).blk t).view.read (Elt Ideal)
      (G0 (V c main_arg0) (V c main_arg1) (V c main_arg5) (V c main_v0) (V c main_arg7) (V c main_v1)) := by
  show (cfg0.win 6).cut (grid0.coords t) ((dat0 V c).after 6 t) = _
  rw [after0_6]
  obtain ⟨e00, e01, e10, e11, e20, e21, e30, e31, e40, e41, e50, e51, e60, e61⟩ := idx_facts t
  have ht : t.val < 150 := t.isLt
  funext j
  obtain ⟨p, q, rfl⟩ : ∃ (p : Fin 8000) (q : Fin 64), j = ix2 p q := ⟨j 0, j 1, eq_ix2 j⟩
  refine (out_at (iblk0 V c 0 t) (iblk0 V c 1 t) (iblk0 V c 2 t) (iblk0 V c 3 t) (iblk0 V c 4 t) (iblk0 V c 5 t) p q).trans ?_
  have hE : t.val * 8000 + p.val < 1200000 := by have := p.isLt; omega
  have rE : ((cfg0.win 6).blk t).view.emb (ix2 p q) = ix2 (⟨t.val * 8000 + p.val, hE⟩ : Fin 1200000) q := by
    funext a; apply Fin.ext
    match a with
    | ⟨0, _⟩ => show win0_6.index t (0 : Fin 2) * 8000 + 1 * p.val = t.val * 8000 + p.val; omega
    | ⟨1, _⟩ => show win0_6.index t (1 : Fin 2) * 64 + 1 * q.val = q.val; omega
  have r0 : ∀ j : Fin 128, iblk0 V c 0 t (ix2 p j) = V c main_arg0 (ix2 (⟨t.val * 8000 + p.val, hE⟩ : Fin 1200000) j) := fun j => by
    show V c main_arg0 (((cfg0.win 0).blk t).view.emb (ix2 p j)) = _
    refine congrArg _ (funext fun a => Fin.ext ?_)
    match a with
    | ⟨0, _⟩ => show win0_0.index t (0 : Fin 2) * 8000 + 1 * p.val = t.val * 8000 + p.val; omega
    | ⟨1, _⟩ => show win0_0.index t (1 : Fin 2) * 128 + 1 * j.val = j.val; omega
  have r1 : ∀ j : Fin 64, iblk0 V c 1 t (ix2 p j) = V c main_arg1 (ix2 (⟨t.val * 8000 + p.val, hE⟩ : Fin 1200000) j) := fun j => by
    show V c main_arg1 (((cfg0.win 1).blk t).view.emb (ix2 p j)) = _
    refine congrArg _ (funext fun a => Fin.ext ?_)
    match a with
    | ⟨0, _⟩ => show win0_1.index t (0 : Fin 2) * 8000 + 1 * p.val = t.val * 8000 + p.val; omega
    | ⟨1, _⟩ => show win0_1.index t (1 : Fin 2) * 64 + 1 * j.val = j.val; omega
  have r2 : ∀ (j : Fin 128) (k : Fin 64), iblk0 V c 2 t (ix2 j k) = V c main_arg5 (ix2 j k) := fun j k => by
    show V c main_arg5 (((cfg0.win 2).blk t).view.emb (ix2 j k)) = _
    refine congrArg _ (funext fun a => Fin.ext ?_)
    match a with
    | ⟨0, _⟩ => show win0_2.index t (0 : Fin 2) * 128 + 1 * j.val = j.val; omega
    | ⟨1, _⟩ => show win0_2.index t (1 : Fin 2) * 64 + 1 * k.val = k.val; omega
  have r3 : ∀ k : Fin 64, iblk0 V c 3 t (ix2 (0 : Fin 1) k) = V c main_v0 (ix2 (0 : Fin 1) k) := fun k => by
    show V c main_v0 (((cfg0.win 3).blk t).view.emb (ix2 (0 : Fin 1) k)) = _
    refine congrArg _ (funext fun a => Fin.ext ?_)
    match a with
    | ⟨0, _⟩ => show win0_3.index t (0 : Fin 2) * 1 + 1 * 0 = 0; omega
    | ⟨1, _⟩ => show win0_3.index t (1 : Fin 2) * 64 + 1 * k.val = k.val; omega
  have r4 : ∀ (j : Fin 64) (k : Fin 64), iblk0 V c 4 t (ix2 j k) = V c main_arg7 (ix2 j k) := fun j k => by
    show V c main_arg7 (((cfg0.win 4).blk t).view.emb (ix2 j k)) = _
    refine congrArg _ (funext fun a => Fin.ext ?_)
    match a with
    | ⟨0, _⟩ => show win0_4.index t (0 : Fin 2) * 64 + 1 * j.val = j.val; omega
    | ⟨1, _⟩ => show win0_4.index t (1 : Fin 2) * 64 + 1 * k.val = k.val; omega
  have r5 : ∀ k : Fin 64, iblk0 V c 5 t (ix2 (0 : Fin 1) k) = V c main_v1 (ix2 (0 : Fin 1) k) := fun k => by
    show V c main_v1 (((cfg0.win 5).blk t).view.emb (ix2 (0 : Fin 1) k)) = _
    refine congrArg _ (funext fun a => Fin.ext ?_)
    match a with
    | ⟨0, _⟩ => show win0_5.index t (0 : Fin 2) * 1 + 1 * 0 = 0; omega
    | ⟨1, _⟩ => show win0_5.index t (1 : Fin 2) * 64 + 1 * k.val = k.val; omega
  refine Eq.trans ?_ (congrArg (G0 (V c main_arg0) (V c main_arg1) (V c main_arg5) (V c main_v0) (V c main_arg7) (V c main_v1)) rE).symm
  rw [G0_apply]
  unfold edgeEntry
  simp only [r0, r1, r2, r3, r4, r5]

/-- An index of the output array is in point `t`'s block iff each coordinate is in the block's range on its axis. -/
theorem mem_blk (t : Fin cfg0.N) (i : S1200000x64.Idx) :
    i ∈ ((cfg0.win 6).blk t).view.set ↔ ∀ a : Fin 2, win0_6.index t a * S8000x64.size a ≤ (i a).val ∧ (i a).val < win0_6.index t a * S8000x64.size a + S8000x64.size a := by
  show i ∈ ((View.whole main_v2).slice (win0_6.rect t)).set ↔ _
  rw [View.set_slice_whole, Rect.mem_set_unit]
  exact Iff.rfl

/-- The blocks tile the output array: row `r` is in the block of point `r / 8000`. -/
theorem cover (i : S1200000x64.Idx) : ∃ t : Fin cfg0.N, (cfg0.win 6).flush t = true ∧ i ∈ ((cfg0.win 6).blk t).view.set := by
  have h0 : (i 0).val < 1200000 := (i 0).isLt
  have h1 : (i 1).val < 64 := (i 1).isLt
  have hT : (i 0).val / 8000 < 150 := by omega
  obtain ⟨-, -, -, -, -, -, -, -, -, -, -, -, e60, e61⟩ := idx_facts (⟨(i 0).val / 8000, hT⟩ : Fin cfg0.N)
  refine ⟨⟨(i 0).val / 8000, hT⟩, flush0_6 _, ?_⟩
  rw [mem_blk]
  intro a
  match a with
  | ⟨0, _⟩ =>
    show win0_6.index ⟨(i 0).val / 8000, hT⟩ (0 : Fin 2) * 8000 ≤ (i 0).val ∧ (i 0).val < win0_6.index ⟨(i 0).val / 8000, hT⟩ (0 : Fin 2) * 8000 + 8000
    rw [e60]
    show (i 0).val / 8000 * 8000 ≤ (i 0).val ∧ (i 0).val < (i 0).val / 8000 * 8000 + 8000
    omega
  | ⟨1, _⟩ =>
    show win0_6.index ⟨(i 0).val / 8000, hT⟩ (1 : Fin 2) * 64 ≤ (i 1).val ∧ (i 1).val < win0_6.index ⟨(i 0).val / 8000, hT⟩ (1 : Fin 2) * 64 + 64
    rw [e61]
    omega

/-- THE OUTPUT ARRAY after the last write-back: the gated filter of the arrays as the kernel finds them, row by row. -/
theorem final (c : Dev nD) :
    (dat0 V c).arrAt 6 cfg0.N
      = G0 (V c main_arg0) (V c main_arg1) (V c main_arg5) (V c main_v0) (V c main_arg7) (V c main_v1) :=
  (dat0 V c).arrAt_eq_of_cover 6 _ (fun t _ => flushed_eq V c t) cover

end Final

end Cert.KernelIdeal.EdgeValue

end
-- ==== Proof.LibColumnLayout.lean ====
/-
  Column vectors read at an index: a length-`a` vector viewed as an `[a, 1]` column and back, and a column repeated
  along the second axis. Row-major position is preserved by the two casts (the unit axis contributes nothing to it), and
  a broadcast reads a unit axis of its operand at coordinate zero.
-/
import Idealize.ShloMosaic.Lib.ValueIdx
import Idealize.ShloMosaic.Lib.Pipeline.Value

noncomputable section

namespace Cert.ColumnLayout

open Idealize.ShloMosaic Idealize.ShloMosaic.ValueIdx

variable {α : Type}

/-- An `[a]` array cast to an `[a, 1]` column reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column cast to `[a]` reads, at `i`, the operand at `(i, 0)`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

end Cert.ColumnLayout

end
-- ==== Proof.Node.lean ====
/-
  The node kernel's output array.

  The grid has 20 points; point `t` reads rows `5000 t … 5000 t + 4999` of the segment sums and of the reciprocal
  column, the whole of both weight matrices and both bias rows, and writes the same rows of the output. Row `p` of
  the tile it writes is two affine layers, each followed by the shifted softplus, of node `5000 t + p`'s mean message —
  its segment sum times its reciprocal, entry by entry. The 20 blocks tile the output array, so after the last
  write-back the array is that function of the whole arrays, row by row (`final`).
-/
import proofs.«135877_j54176717472000_2_alg».proof.Proof.Gen.KernelIdeal.Frame
import proofs.«135877_j54176717472000_2_alg».proof.Proof.Layers
import proofs.«135877_j54176717472000_2_alg».proof.Proof.LibColumnLayout

set_option maxRecDepth 16384

open scoped BigOperators

noncomputable section

namespace Cert.KernelIdeal.NodeValue

open Cert.KernelIdeal Cert.KernelIdeal.Gen Cert.Schnet
open Idealize.ShloMosaic Idealize.ShloMosaic.TcCoe Idealize.ShloMosaic.ValueIdx
open Idealize.SL Idealize.SL.Sem
open Idealize.ShloMosaic.Pipeline (Dat Cfg Window)

theorem hz : (![0, 0] : Fin 2 → Nat) = fun _ => 0 := funext fun a => by fin_cases a <;> rfl

/-- Entry `(v, d)` of the node update: two layers on node `v`'s mean message `s (v, ·) · inv (v, 0)`, at column `d`.
    The biases are read off `[1, 64]` rows, as the kernel holds them. -/
def nodeEntry (a0 : S100000x64.Idx → EReal) (a1 : S100000x1.Idx → EReal) (a2 : S64x64.Idx → EReal)
    (a3 : S1x64.Idx → EReal) (a4 : S64x64.Idx → EReal) (a5 : S1x64.Idx → EReal) (v : Fin 100000) (d : Fin 64) : EReal :=
  mlpRow (fun j : Fin 64 => a0 (ix2 v j) * a1 (ix2 v (0 : Fin 1))) (fun (j : Fin 64) (k : Fin 64) => a2 (ix2 j k))
    (fun k : Fin 64 => a3 (ix2 (0 : Fin 1) k)) (fun (k : Fin 64) (d' : Fin 64) => a4 (ix2 k d')) (fun d' : Fin 64 => a5 (ix2 (0 : Fin 1) d')) d

/-- The node update as an array. -/
def G1 (a0 : S100000x64.Idx → EReal) (a1 : S100000x1.Idx → EReal) (a2 : S64x64.Idx → EReal)
    (a3 : S1x64.Idx → EReal) (a4 : S64x64.Idx → EReal) (a5 : S1x64.Idx → EReal) : S100000x64.Idx → EReal :=
  fun i => nodeEntry a0 a1 a2 a3 a4 a5 ⟨(i 0).val, (i 0).isLt⟩ ⟨(i 1).val, (i 1).isLt⟩

theorem G1_apply (a0 : S100000x64.Idx → EReal) (a1 : S100000x1.Idx → EReal) (a2 : S64x64.Idx → EReal)
    (a3 : S1x64.Idx → EReal) (a4 : S64x64.Idx → EReal) (a5 : S1x64.Idx → EReal) (v : Fin 100000) (d : Fin 64) :
    G1 a0 a1 a2 a3 a4 a5 (ix2 v d) = nodeEntry a0 a1 a2 a3 a4 a5 v d := rfl

/-- The second layer's value before its softplus, at entry `(p, q)` of a tile. -/
theorem pay2_at (v0 : Vec Ideal S5000x64 .f32) (v2 : Vec Ideal S5000x1 .f32) (v7 : Vec Ideal S64x64 .f32) (v10 : Vec Ideal S1x64 .f32)
    (v31 : Vec Ideal S64x64 .f32) (v34 : Vec Ideal S1x64 .f32) (p : Fin 5000) (q : Fin 64) :
    k1_pay2 (F := Ideal) v0 v2 v7 v10 v31 v34 (ix2 p q)
      = linRow (fun k : Fin 64 => ssp (linRow (fun j : Fin 64 => v0 (ix2 p j) * v2 (ix2 p (0 : Fin 1))) (fun (j : Fin 64) (k : Fin 64) => v7 (ix2 j k))
            (fun k : Fin 64 => v10 (ix2 (0 : Fin 1) k)) k))
          (fun (k : Fin 64) (d : Fin 64) => v31 (ix2 k d)) (fun d : Fin 64 => v34 (ix2 (0 : Fin 1) d)) q := by
  unfold k1_pay2
  rw [layer_at dot_S5000x64_S64x64_S5000x64_1_0_0_1_n_n rfl rfl rfl rfl rfl rfl rfl rfl]
  refine congrArg (fun r => linRow r _ _ q) (funext fun k => ?_)
  rw [truncf_apply, sspTile_at, layer_at dot_S5000x64_S64x64_S5000x64_1_0_0_1_n_n rfl rfl rfl rfl rfl rfl rfl rfl]
  refine congrArg ssp (congrArg (fun r => linRow r _ _ k) (funext fun j => ?_))
  rw [truncf_apply, mulf_apply, shapeCast_self, shapeCast_self, Cert.ColumnLayout.broadcastTo_a1_ab_apply]

/-- THE TILE THE BODY WRITES, at entry `(p, q)`. -/
theorem out_at (x0 : Vec Ideal S5000x64 .f32) (x1 : Vec Ideal S5000x1 .f32) (x2 : Vec Ideal S64x64 .f32)
    (x3 : Vec Ideal S1x64 .f32) (x4 : Vec Ideal S64x64 .f32) (x5 : Vec Ideal S1x64 .f32) (p : Fin 5000) (q : Fin 64) :
    out1_6 (F := Ideal) x0 x1 x2 x3 x4 x5 (ix2 p q)
      = mlpRow (fun j : Fin 64 => x0 (ix2 p j) * x1 (ix2 p (0 : Fin 1))) (fun (j : Fin 64) (k : Fin 64) => x2 (ix2 j k))
          (fun k : Fin 64 => x3 (ix2 (0 : Fin 1) k)) (fun (k : Fin 64) (d : Fin 64) => x4 (ix2 k d)) (fun d : Fin 64 => x5 (ix2 (0 : Fin 1) d)) q := by
  unfold out1_6
  rw [View.canon_unit_zero hz]
  simp only [View.ld_unit_zero (S := S5000x64) hz, View.ld_unit_zero (S := S5000x1) hz, View.ld_unit_zero (S := S1x64) hz,
    View.ld_unit_zero (S := S64x64) hz]
  unfold k1_pay1 k1_pay3 k1_pay4
  rw [sspTile_at, pay2_at]
  rfl

/-! ## From tiles to the array -/

section Final

variable (V : (c : Dev nD) → (b : Ref sig .tc) → Buf (Elt Ideal) ((c : Thread nD τ).loc b))

/-- The printed index maps, decided once over the grid: the row-blocked windows are at block `t` at point `t`, the
    weights and bias rows at their one block. -/
theorem idx_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

/-- WHAT POINT `t` WRITES BACK is block `t` of the array function of the arrays as the kernel finds them: row `p` of
    the tile is row `5000 t + p` of each row-blocked array, and the weights and bias rows are read whole. -/
theorem flushed_eq (c : Dev nD) (t : Fin cfg1.N) :
    (dat1 V c).flushed 6 t = ((cfg1.win 6).blk t).view.read (Elt Ideal)
      (G1 (V c main_v13) (V c main_v26) (V c main_arg9) (V c main_v27) (V c main_arg11) (V c main_v28)) := by
  show (cfg1.win 6).cut (grid1.coords t) ((dat1 V c).after 6 t) = _
  rw [after1_6]
  obtain ⟨e00, e01, e10, e11, e20, e21, e30, e31, e40, e41, e50, e51, e60, e61⟩ := idx_facts t
  have ht : t.val < 20 := t.isLt
  funext j
  obtain ⟨p, q, rfl⟩ : ∃ (p : Fin 5000) (q : Fin 64), j = ix2 p q := ⟨j 0, j 1, eq_ix2 j⟩
  refine (out_at (iblk1 V c 0 t) (iblk1 V c 1 t) (iblk1 V c 2 t) (iblk1 V c 3 t) (iblk1 V c 4 t) (iblk1 V c 5 t) p q).trans ?_
  have hE : t.val * 5000 + p.val < 100000 := by have := p.isLt; omega
  have rE : ((cfg1.win 6).blk t).view.emb (ix2 p q) = ix2 (⟨t.val * 5000 + p.val, hE⟩ : Fin 100000) q := by
    funext a; apply Fin.ext
    match a with
    | ⟨0, _⟩ => show win1_6.index t (0 : Fin 2) * 5000 + 1 * p.val = t.val * 5000 + p.val; omega
    | ⟨1, _⟩ => show win1_6.index t (1 : Fin 2) * 64 + 1 * q.val = q.val; omega
  have r0 : ∀ j : Fin 64, iblk1 V c 0 t (ix2 p j) = V c main_v13 (ix2 (⟨t.val * 5000 + p.val, hE⟩ : Fin 100000) j) := fun j => by
    show V c main_v13 (((cfg1.win 0).blk t).view.emb (ix2 p j)) = _
    refine congrArg _ (funext fun a => Fin.ext ?_)
    match a with
    | ⟨0, _⟩ => show win1_0.index t (0 : Fin 2) * 5000 + 1 * p.val = t.val * 5000 + p.val; omega
    | ⟨1, _⟩ => show win1_0.index t (1 : Fin 2) * 64 + 1 * j.val = j.val; omega
  have r1 : ∀ j : Fin 1, iblk1 V c 1 t (ix2 p j) = V c main_v26 (ix2 (⟨t.val * 5000 + p.val, hE⟩ : Fin 100000) j) := fun j => by
    show V c main_v26 (((cfg1.win 1).blk t).view.emb (ix2 p j)) = _
    refine congrArg _ (funext fun a => Fin.ext ?_)
    match a with
    | ⟨0, _⟩ => show win1_1.index t (0 : Fin 2) * 5000 + 1 * p.val = t.val * 5000 + p.val; omega
    | ⟨1, _⟩ => show win1_1.index t (1 : Fin 2) * 1 + 1 * j.val = j.val; omega
  have r2 : ∀ (j : Fin 64) (k : Fin 64), iblk1 V c 2 t (ix2 j k) = V c main_arg9 (ix2 j k) := fun j k => by
    show V c main_arg9 (((cfg1.win 2).blk t).view.emb (ix2 j k)) = _
    refine congrArg _ (funext fun a => Fin.ext ?_)
    match a with
    | ⟨0, _⟩ => show win1_2.index t (0 : Fin 2) * 64 + 1 * j.val = j.val; omega
    | ⟨1, _⟩ => show win1_2.index t (1 : Fin 2) * 64 + 1 * k.val = k.val; omega
  have r3 : ∀ k : Fin 64, iblk1 V c 3 t (ix2 (0 : Fin 1) k) = V c main_v27 (ix2 (0 : Fin 1) k) := fun k => by
    show V c main_v27 (((cfg1.win 3).blk t).view.emb (ix2 (0 : Fin 1) k)) = _
    refine congrArg _ (funext fun a => Fin.ext ?_)
    match a with
    | ⟨0, _⟩ => show win1_3.index t (0 : Fin 2) * 1 + 1 * 0 = 0; omega
    | ⟨1, _⟩ => show win1_3.index t (1 : Fin 2) * 64 + 1 * k.val = k.val; omega
  have r4 : ∀ (j : Fin 64) (k : Fin 64), iblk1 V c 4 t (ix2 j k) = V c main_arg11 (ix2 j k) := fun j k => by
    show V c main_arg11 (((cfg1.win 4).blk t).view.emb (ix2 j k)) = _
    refine congrArg _ (funext fun a => Fin.ext ?_)
    match a with
    | ⟨0, _⟩ => show win1_4.index t (0 : Fin 2) * 64 + 1 * j.val = j.val; omega
    | ⟨1, _⟩ => show win1_4.index t (1 : Fin 2) * 64 + 1 * k.val = k.val; omega
  have r5 : ∀ k : Fin 64, iblk1 V c 5 t (ix2 (0 : Fin 1) k) = V c main_v28 (ix2 (0 : Fin 1) k) := fun k => by
    show V c main_v28 (((cfg1.win 5).blk t).view.emb (ix2 (0 : Fin 1) k)) = _
    refine congrArg _ (funext fun a => Fin.ext ?_)
    match a with
    | ⟨0, _⟩ => show win1_5.index t (0 : Fin 2) * 1 + 1 * 0 = 0; omega
    | ⟨1, _⟩ => show win1_5.index t (1 : Fin 2) * 64 + 1 * k.val = k.val; omega
  refine Eq.trans ?_ (congrArg (G1 (V c main_v13) (V c main_v26) (V c main_arg9) (V c main_v27) (V c main_arg11) (V c main_v28)) rE).symm
  rw [G1_apply]
  unfold nodeEntry
  simp only [r0, r1, r2, r3, r4, r5]

/-- An index of the output array is in point `t`'s block iff each coordinate is in the block's range on its axis. -/
theorem mem_blk (t : Fin cfg1.N) (i : S100000x64.Idx) :
    i ∈ ((cfg1.win 6).blk t).view.set ↔ ∀ a : Fin 2, win1_6.index t a * S5000x64.size a ≤ (i a).val ∧ (i a).val < win1_6.index t a * S5000x64.size a + S5000x64.size a := by
  show i ∈ ((View.whole main_v29).slice (win1_6.rect t)).set ↔ _
  rw [View.set_slice_whole, Rect.mem_set_unit]
  exact Iff.rfl

/-- The blocks tile the output array: row `r` is in the block of point `r / 5000`. -/
theorem cover (i : S100000x64.Idx) : ∃ t : Fin cfg1.N, (cfg1.win 6).flush t = true ∧ i ∈ ((cfg1.win 6).blk t).view.set := by
  have h0 : (i 0).val < 100000 := (i 0).isLt
  have h1 : (i 1).val < 64 := (i 1).isLt
  have hT : (i 0).val / 5000 < 20 := by omega
  obtain ⟨-, -, -, -, -, -, -, -, -, -, -, -, e60, e61⟩ := idx_facts (⟨(i 0).val / 5000, hT⟩ : Fin cfg1.N)
  refine ⟨⟨(i 0).val / 5000, hT⟩, flush1_6 _, ?_⟩
  rw [mem_blk]
  intro a
  match a with
  | ⟨0, _⟩ =>
    show win1_6.index ⟨(i 0).val / 5000, hT⟩ (0 : Fin 2) * 5000 ≤ (i 0).val ∧ (i 0).val < win1_6.index ⟨(i 0).val / 5000, hT⟩ (0 : Fin 2) * 5000 + 5000
    rw [e60]
    show (i 0).val / 5000 * 5000 ≤ (i 0).val ∧ (i 0).val < (i 0).val / 5000 * 5000 + 5000
    omega
  | ⟨1, _⟩ =>
    show win1_6.index ⟨(i 0).val / 5000, hT⟩ (1 : Fin 2) * 64 ≤ (i 1).val ∧ (i 1).val < win1_6.index ⟨(i 0).val / 5000, hT⟩ (1 : Fin 2) * 64 + 64
    rw [e61]
    omega

/-- THE OUTPUT ARRAY after the last write-back: the node update of the arrays as the kernel finds them, row by row. -/
theorem final (c : Dev nD) :
    (dat1 V c).arrAt 6 cfg1.N
      = G1 (V c main_v13) (V c main_v26) (V c main_arg9) (V c main_v27) (V c main_arg11) (V c main_v28) :=
  (dat1 V c).arrAt_eq_of_cover 6 _ (fun t _ => flushed_eq V c t) cover

end Final

end Cert.KernelIdeal.NodeValue

end
-- ==== Proof.Mid.lean ====
/-
  The arrays the two kernels are entered with, as functions of the argument arrays.

  Before the edge kernel the host only recasts the two bias vectors as rows. Between the kernels it wraps negative
  source numbers, gathers the source nodes' rows, multiplies them by the edge kernel's output, sums the products
  over the edges that end at each node, counts those edges in 32-bit integers, forms the guarded reciprocal of the
  count and recasts it as a column, and recasts the last two bias vectors as rows. No host operation and no kernel
  writes an argument array. Each fact below reads one buffer at a kernel's entry back through those operations.
-/
import proofs.«135877_j54176717472000_2_alg».proof.Proof.Gen.KernelIdeal.Frame
import Idealize.ShloMosaic.Lib.StableHlo.Run

set_option maxRecDepth 16384

noncomputable section

namespace Cert.KernelIdeal.MidValue

open Cert.KernelIdeal Cert.KernelIdeal.Gen
open Idealize.ShloMosaic Idealize.ShloMosaic.TcCoe Idealize.SL.Sem Idealize.ShloMosaic.StableHlo

variable {F : FTy → Type} [FloatOps F]

/-- The source numbers with the negative ones wrapped (`i + 100000` for `i < 0`), as a column. -/
def srcCol (src : (⟨S1200000, .i32⟩ : BufTy).Contents (Elt F)) : (⟨S1200000x1, .i32⟩ : BufTy).Contents (Elt F) :=
  broadcastInDim S1200000x1 ![0] bcast_S1200000_S1200000x1_0
    (select (cmpi .slt src (broadcastInDim S1200000 ![] bcast_S_S1200000 (constantI S_ 32 0#32)))
      (addi src (broadcastInDim S1200000 ![] bcast_S_S1200000 (constantI S_ 32 100000#32))) src)

/-- The sum over the edges ending at each node of the source node's row times the edge's gated filter. -/
def segSum (nh : (⟨S100000x64, .f32⟩ : BufTy).Contents (Elt F)) (src dst : (⟨S1200000, .i32⟩ : BufTy).Contents (Elt F))
    (eh2 : (⟨S1200000x64, .f32⟩ : BufTy).Contents (Elt F)) : (⟨S100000x64, .f32⟩ : BufTy).Contents (Elt F) :=
  Host.scatterAdd scatter_S100000x64_S1200000x1_S1200000x64_1_0_0_1
    (broadcastInDim S100000x64 ![] bcast_S_S100000x64 (constant S_ .f32 0x00000000#32))
    (broadcastInDim S1200000x1 ![0] bcast_S1200000_S1200000x1_0 dst)
    (mulf (Host.gather gather_S100000x64_S1200000x1_S1200000x64_1_0_n_n_0_1_164 nh (srcCol (F := F) src)) eh2)

/-- The number of edges ending at each node, counted in 32-bit words. -/
def cntWord (dst : (⟨S1200000, .i32⟩ : BufTy).Contents (Elt F)) : (⟨S100000, .i32⟩ : BufTy).Contents (Elt F) :=
  Host.scatter scatter_S100000_S1200000x1_S1200000_n_0_0_1 IntOp.addi
    (broadcastInDim S100000 ![] bcast_S_S100000 (constantI S_ 32 0#32))
    (broadcastInDim S1200000x1 ![0] bcast_S1200000_S1200000x1_0 dst)
    (broadcastInDim S1200000 ![] bcast_S_S1200000 (constantI S_ 32 1#32))

/-- The guarded reciprocal of the count — `1 / max n 1` where `n > 0`, else `0` — as a column. -/
def invCol (dst : (⟨S1200000, .i32⟩ : BufTy).Contents (Elt F)) : (⟨S100000x1, .f32⟩ : BufTy).Contents (Elt F) :=
  shapeCast S100000x1
    (select
      (cmpf .ogt (sitofp .f32 (cntWord (F := F) dst) : (⟨S100000, .f32⟩ : BufTy).Contents (Elt F))
        (broadcastInDim S100000 ![] bcast_S_S100000 (constant S_ .f32 0x00000000#32)))
      (Host.divf (broadcastInDim S100000 ![] bcast_S_S100000 (constant S_ .f32 0x3F800000#32))
        (maximumf (sitofp .f32 (cntWord (F := F) dst)) (broadcastInDim S100000 ![] bcast_S_S100000 (constant S_ .f32 0x3F800000#32))))
      (broadcastInDim S100000 ![] bcast_S_S100000 (constant (F := F) S_ .f32 0x00000000#32)))
    shapeCasts_S100000_S100000x1

/-- A bias vector recast as a row. -/
def biasRow (b : (⟨S64, .f32⟩ : BufTy).Contents (Elt F)) : (⟨S1x64, .f32⟩ : BufTy).Contents (Elt F) :=
  shapeCast S1x64 b shapeCasts_S64_S1x64

/-! ## The host operations between the kernels, from any contents `W` -/

abbrev mid (W : Valuation τ sig (Elt F)) : Valuation τ sig (Elt F) :=
  StableHlo.after (hostOps1_2 (F := F)) (StableHlo.after hostOps1_1 (StableHlo.after hostOps1 W))

theorem mid_v13 (W : Valuation τ sig (Elt F)) : mid W (Proc.devRef .tc main_v13)
    = segSum (F := F) (W (Proc.devRef .tc main_arg2)) (W (Proc.devRef .tc main_arg3)) (W (Proc.devRef .tc main_arg4)) (W (Proc.devRef .tc main_v2)) := by
  after_results_simp <;> rfl

theorem mid_v26 (W : Valuation τ sig (Elt F)) : mid W (Proc.devRef .tc main_v26) = invCol (F := F) (W (Proc.devRef .tc main_arg4)) := by
  after_results_simp <;> rfl

theorem mid_v27 (W : Valuation τ sig (Elt F)) : mid W (Proc.devRef .tc main_v27) = biasRow (F := F) (W (Proc.devRef .tc main_arg10)) := by
  after_results_simp <;> rfl

theorem mid_v28 (W : Valuation τ sig (Elt F)) : mid W (Proc.devRef .tc main_v28) = biasRow (F := F) (W (Proc.devRef .tc main_arg12)) := by
  after_results_simp <;> rfl

theorem mid_arg9 (W : Valuation τ sig (Elt F)) : mid W (Proc.devRef .tc main_arg9) = W (Proc.devRef .tc main_arg9) := by
  after_results_simp <;> rfl

theorem mid_arg11 (W : Valuation τ sig (Elt F)) : mid W (Proc.devRef .tc main_arg11) = W (Proc.devRef .tc main_arg11) := by
  after_results_simp <;> rfl

/-! ## The host operations before the edge kernel, from any contents `W` -/

theorem pre_v0 (W : Valuation τ sig (Elt F)) : StableHlo.after (hostOps0 (F := F)) W (Proc.devRef .tc main_v0) = biasRow (F := F) (W (Proc.devRef .tc main_arg6)) := by
  after_results_simp <;> rfl

theorem pre_v1 (W : Valuation τ sig (Elt F)) : StableHlo.after (hostOps0 (F := F)) W (Proc.devRef .tc main_v1) = biasRow (F := F) (W (Proc.devRef .tc main_arg8)) := by
  after_results_simp <;> rfl

theorem pre_keep (W : Valuation τ sig (Elt F)) (b : Ref sig .tc) (h0 : b ≠ main_v0) (h1 : b ≠ main_v1) :
    StableHlo.after (hostOps0 (F := F)) W (Proc.devRef .tc b) = W (Proc.devRef .tc b) := by
  simp only [after_cons, after_nil]
  rw [reshape_result_ne _ _ _ _ _ _ _ h1, reshape_result_ne _ _ _ _ _ _ _ h0]

end Cert.KernelIdeal.MidValue

end
-- ==== Proof.KernelValue.lean ====
/-
  The idealized kernel's result as one function of the argument arrays.

  The result buffer ends at the node kernel's output array; that array is the node update of the arrays the node
  kernel is entered with; those are the segment sum of the gathered rows times the edge kernel's output array, the
  reciprocal column of the count, and the last two weight matrices and bias rows; and the edge kernel's output
  array is the gated filter of the arrays the edge kernel is entered with, which are argument arrays and two bias
  rows. Chaining these equations names the result.
-/
import proofs.«135877_j54176717472000_2_alg».proof.Proof.Edge
import proofs.«135877_j54176717472000_2_alg».proof.Proof.Node
import proofs.«135877_j54176717472000_2_alg».proof.Proof.Mid

set_option maxRecDepth 16384

noncomputable section

namespace Cert.KernelIdeal.ResultValue

open Cert.KernelIdeal Cert.KernelIdeal.Gen Cert.KernelIdeal.MidValue
open Idealize.ShloMosaic Idealize.ShloMosaic.TcCoe Idealize.SL.Sem Idealize.ShloMosaic.StableHlo

variable (m : (ℓ : Loc nD τ sig) → Buf (Elt Ideal) ℓ) (ρ : Dev nD → PrngReg)

/-! ## An argument array is what it was at launch, at every boundary -/

theorem W1_keep (c : Dev nD) (b : Ref sig .tc) (h0 : b ≠ main_v0) (h1 : b ≠ main_v1) :
    W1 m ρ c (Proc.devRef .tc b) = W0 m ρ c (Proc.devRef .tc b) :=
  pre_keep (W0 m ρ c) b h0 h1

theorem W2_keep (c : Dev nD) (b : Ref sig .tc) (hb : ∀ w, Pipeline.arrRef spec0 w ≠ b) (h0 : b ≠ main_v0) (h1 : b ≠ main_v1) :
    W2 m ρ c (Proc.devRef .tc b) = W0 m ρ c (Proc.devRef .tc b) :=
  (W2_of_ne m ρ c b hb).trans (W1_keep m ρ c b h0 h1)

/-! ## The edge kernel's entry and exit -/

/-- The edge kernel's output array: the gated filter of the argument arrays. -/
theorem edge_out (c : Dev nD) :
    W2 m ρ c (Proc.devRef .tc main_v2)
      = EdgeValue.G0 (m ((c : Thread nD τ).loc main_arg0)) (m ((c : Thread nD τ).loc main_arg1)) (m ((c : Thread nD τ).loc main_arg5))
          (biasRow (F := Ideal) (m ((c : Thread nD τ).loc main_arg6))) (m ((c : Thread nD τ).loc main_arg7))
          (biasRow (F := Ideal) (m ((c : Thread nD τ).loc main_arg8))) := by
  refine ((W2_arr m ρ c 6).trans (EdgeValue.final (V1 m ρ) c)).trans ?_
  have a0 : V1 m ρ c main_arg0 = m ((c : Thread nD τ).loc main_arg0) := W1_keep m ρ c main_arg0 (by decide) (by decide)
  have a1 : V1 m ρ c main_arg1 = m ((c : Thread nD τ).loc main_arg1) := W1_keep m ρ c main_arg1 (by decide) (by decide)
  have a5 : V1 m ρ c main_arg5 = m ((c : Thread nD τ).loc main_arg5) := W1_keep m ρ c main_arg5 (by decide) (by decide)
  have a7 : V1 m ρ c main_arg7 = m ((c : Thread nD τ).loc main_arg7) := W1_keep m ρ c main_arg7 (by decide) (by decide)
  have b1 : V1 m ρ c main_v0 = biasRow (F := Ideal) (m ((c : Thread nD τ).loc main_arg6)) := pre_v0 (W0 m ρ c)
  have b2 : V1 m ρ c main_v1 = biasRow (F := Ideal) (m ((c : Thread nD τ).loc main_arg8)) := pre_v1 (W0 m ρ c)
  rw [a0, a1, a5, a7, b1, b2]

/-! ## The node kernel's entry and exit -/

/-- THE RESULT: the node update of the segment sums of the gathered rows times the gated filter, the reciprocal column
    of the count, and the last two layers' weights and bias rows. -/
theorem result_eq (c : Dev nD) :
    W6 m ρ c (Proc.devRef .tc main_v29)
      = NodeValue.G1
          (segSum (F := Ideal) (m ((c : Thread nD τ).loc main_arg2)) (m ((c : Thread nD τ).loc main_arg3)) (m ((c : Thread nD τ).loc main_arg4))
            (EdgeValue.G0 (m ((c : Thread nD τ).loc main_arg0)) (m ((c : Thread nD τ).loc main_arg1)) (m ((c : Thread nD τ).loc main_arg5))
              (biasRow (F := Ideal) (m ((c : Thread nD τ).loc main_arg6))) (m ((c : Thread nD τ).loc main_arg7))
              (biasRow (F := Ideal) (m ((c : Thread nD τ).loc main_arg8)))))
          (invCol (F := Ideal) (m ((c : Thread nD τ).loc main_arg4)))
          (m ((c : Thread nD τ).loc main_arg9)) (biasRow (F := Ideal) (m ((c : Thread nD τ).loc main_arg10)))
          (m ((c : Thread nD τ).loc main_arg11)) (biasRow (F := Ideal) (m ((c : Thread nD τ).loc main_arg12))) := by
  refine ((W6_arr m ρ c 6).trans (NodeValue.final (V5 m ρ) c)).trans ?_
  have k2 : W2 m ρ c (Proc.devRef .tc main_arg2) = m ((c : Thread nD τ).loc main_arg2) := W2_keep m ρ c main_arg2 (by decide) (by decide) (by decide)
  have k3 : W2 m ρ c (Proc.devRef .tc main_arg3) = m ((c : Thread nD τ).loc main_arg3) := W2_keep m ρ c main_arg3 (by decide) (by decide) (by decide)
  have k4 : W2 m ρ c (Proc.devRef .tc main_arg4) = m ((c : Thread nD τ).loc main_arg4) := W2_keep m ρ c main_arg4 (by decide) (by decide) (by decide)
  have k9 : W2 m ρ c (Proc.devRef .tc main_arg9) = m ((c : Thread nD τ).loc main_arg9) := W2_keep m ρ c main_arg9 (by decide) (by decide) (by decide)
  have k10 : W2 m ρ c (Proc.devRef .tc main_arg10) = m ((c : Thread nD τ).loc main_arg10) := W2_keep m ρ c main_arg10 (by decide) (by decide) (by decide)
  have k11 : W2 m ρ c (Proc.devRef .tc main_arg11) = m ((c : Thread nD τ).loc main_arg11) := W2_keep m ρ c main_arg11 (by decide) (by decide) (by decide)
  have k12 : W2 m ρ c (Proc.devRef .tc main_arg12) = m ((c : Thread nD τ).loc main_arg12) := W2_keep m ρ c main_arg12 (by decide) (by decide) (by decide)
  have s : V5 m ρ c main_v13 = _ := (mid_v13 (W2 m ρ c)).trans (by rw [k2, k3, k4, edge_out m ρ c])
  have i : V5 m ρ c main_v26 = _ := (mid_v26 (W2 m ρ c)).trans (by rw [k4])
  have w3 : V5 m ρ c main_arg9 = _ := (mid_arg9 (W2 m ρ c)).trans k9
  have b3 : V5 m ρ c main_v27 = _ := (mid_v27 (W2 m ρ c)).trans (by rw [k10])
  have w4 : V5 m ρ c main_arg11 = _ := (mid_arg11 (W2 m ρ c)).trans k11
  have b4 : V5 m ρ c main_v28 = _ := (mid_v28 (W2 m ρ c)).trans (by rw [k12])
  rw [s, i, w3, b3, w4, b4]

end Cert.KernelIdeal.ResultValue

end
-- ==== Proof.LibRowScatter.lean ====
/-
  Rows accumulated through an integer index column.

  An accumulating scatter whose scatter indices form a column `[E, 1]` and whose update windows are whole rows sends
  update row `e` to the operand row whose number is `idx (e, 0)` read as a signed integer, NOT clamped, and drops the
  row when that number is negative or at least `N`. Over the extended reals the result at `(v, c)` is therefore the
  operand there plus the sum of the updates `(e, c)` over the edges `e` whose integer is exactly `v`. The same holds
  for a flat operand `[N]` with flat updates `[E]`. Stated for any extents `N`, `E`, `C`.
-/
import Idealize.ShloMosaic.Lib.ValueIdx
import Idealize.ShloMosaic.PureOps.Ideal.Laws

open scoped BigOperators

noncomputable section

namespace Cert.RowIndex

open Idealize.ShloMosaic Idealize.ShloMosaic.ValueIdx

/-! ## Rows of an `[N, C]` operand -/

/-- The dimension numbers of "update row `e` goes to operand row `idx (e, 0)`". -/
abbrev rowScatter (N E C : Nat) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

section Rows
variable {N E C w : Nat} (wf : ScatterDims.WF ⟨2, ![N, C]⟩ ⟨2, ![E, 1]⟩ ⟨2, ![E, C]⟩ [1] [0] [0] 1)
  (idx : IVec ⟨2, ![E, 1]⟩ w) (e : Fin E) (c' : Fin C)

/-- On the row axis the window starts at the signed integer of the edge's index word. -/
theorem rowScatter_start0 : (rowScatter N E C wf).start (ix2 e c') idx 0 = (idx (ix2 e (0 : Fin 1))).toInt := by
  unfold ScatterDims.start
  rw [dif_pos (show (0 : Fin 2) ∈ (rowScatter N E C wf).scatterDimsToOperandDims from List.mem_singleton.mpr rfl)]
  have hsi : (rowScatter N E C wf).siIdx (ix2 e c') ⟨List.idxOf (0 : Fin 2) (rowScatter N E C wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- On the column axis the window starts at zero. -/
theorem rowScatter_start1 : (rowScatter N E C wf).start (ix2 e c') idx 1 = 0 := by
  unfold ScatterDims.start
  rw [dif_neg (show (1 : Fin 2) ∉ (rowScatter N E C wf).scatterDimsToOperandDims from
    fun h => absurd (congrArg Fin.val (List.mem_singleton.mp h)) Nat.one_ne_zero)]

/-- The row axis is inserted: no window coordinate there. -/
theorem rowScatter_window0 : (rowScatter N E C wf).window (ix2 e c') 0 = 0 := by
  unfold ScatterDims.window
  rw [dif_neg (by simp [ScatterDims.sKept, Shape.kept])]

/-- The column axis carries the update's column. -/
theorem rowScatter_window1 : (rowScatter N E C wf).window (ix2 e c') 1 = c'.val := by
  unfold ScatterDims.window
  rw [dif_pos (by simp [ScatterDims.sKept, Shape.kept])]
  rfl

/-- WHERE AN UPDATE LANDS: update `(e, c')` lands on `(v, c)` exactly when the edge's signed integer is `v` and the
    columns agree. -/
theorem rowScatter_lands (v : Fin N) (c : Fin C) :
    (rowScatter N E C wf).resultIdx? (ix2 e c') idx = some (ix2 v c)
      ↔ (idx (ix2 e (0 : Fin 1))).toInt = (v.val : ℤ) ∧ c' = c := by
  have h0 := rowScatter_start0 wf idx e c'
  have h1 := rowScatter_start1 wf idx e c'
  have w0 := rowScatter_window0 wf e c'
  have w1 := rowScatter_window1 wf e c'
  unfold ScatterDims.resultIdx?
  split
  · rename_i h
    constructor
    · intro hs
      have hf := Option.some.inj hs
      have e0 := congrArg (fun f => (f 0).val) hf
      have e1 := congrArg (fun f => (f 1).val) hf
      simp only at e0 e1
      have hh0 := h 0
      rw [h0, w0] at e0 hh0
      rw [h1, w1] at e1
      refine ⟨?_, Fin.ext ?_⟩
      · change ((idx (ix2 e (0 : Fin 1))).toInt + ((0 : ℕ) : ℤ)).toNat = v.val at e0
        omega
      · change ((0 : ℤ) + (c'.val : ℤ)).toNat = c.val at e1
        omega
    · rintro ⟨hv, rfl⟩
      congr 1
      funext a
      refine Fin.ext ?_
      match a with
      | ⟨0, _⟩ =>
        show ((rowScatter N E C wf).start (ix2 e c') idx 0 + ((rowScatter N E C wf).window (ix2 e c') 0 : ℤ)).toNat = v.val
        rw [h0, w0, hv]; omega
      | ⟨1, _⟩ =>
        show ((rowScatter N E C wf).start (ix2 e c') idx 1 + ((rowScatter N E C wf).window (ix2 e c') 1 : ℤ)).toNat = c'.val
        rw [h1, w1]; omega
  · rename_i h
    constructor
    · intro hs; exact absurd hs (by simp)
    · rintro ⟨hv, rfl⟩
      exfalso
      apply h
      intro a
      match a with
      | ⟨0, _⟩ =>
        show 0 ≤ (rowScatter N E C wf).start (ix2 e c') idx 0 + ((rowScatter N E C wf).window (ix2 e c') 0 : ℤ)
          ∧ (rowScatter N E C wf).start (ix2 e c') idx 0 + ((rowScatter N E C wf).window (ix2 e c') 0 : ℤ) < (N : ℤ)
        rw [h0, w0, hv]; have := v.isLt; omega
      | ⟨1, _⟩ =>
        show 0 ≤ (rowScatter N E C wf).start (ix2 e c') idx 1 + ((rowScatter N E C wf).window (ix2 e c') 1 : ℤ)
          ∧ (rowScatter N E C wf).start (ix2 e c') idx 1 + ((rowScatter N E C wf).window (ix2 e c') 1 : ℤ) < (C : ℤ)
        rw [h1, w1]; have := c'.isLt; omega

end Rows

/-- THE ROW SCATTER-ADD AT `(v, c)`, over the extended reals: the operand's entry plus the updates `(e, c)` of the
    edges whose index word is the signed integer `v`. -/
theorem scatterAdd_rows_apply {N E C w : Nat} (wf : ScatterDims.WF ⟨2, ![N, C]⟩ ⟨2, ![E, 1]⟩ ⟨2, ![E, C]⟩ [1] [0] [0] 1)
    (x : (⟨2, ![N, C]⟩ : Shape).Idx → EReal) (idx : IVec ⟨2, ![E, 1]⟩ w) (upd : (⟨2, ![E, C]⟩ : Shape).Idx → EReal)
    (v : Fin N) (c : Fin C) :
    Ideal.hostScatterAdd (rowScatter N E C wf) x idx upd (ix2 v c)
      = x (ix2 v c) + ∑ e ∈ Finset.univ.filter (fun e : Fin E => (idx (ix2 e (0 : Fin 1))).toInt = (v.val : ℤ)), upd (ix2 e c) := by
  unfold Ideal.hostScatterAdd
  congr 1
  rw [Finset.sum_filter, Finset.sum_filter, sum_idx2]
  refine Finset.sum_congr rfl fun e _ => ?_
  simp only [rowScatter_lands wf idx e _ v c]
  by_cases hq : (idx (ix2 e (0 : Fin 1))).toInt = (v.val : ℤ)
  · simp [hq]
  · simp [hq]

/-- The same, for any record that IS those dimension numbers (a program's own record, by unfolding its definition):
    stated so that the scatter in a goal is matched as it is written and never unfolded. -/
theorem scatterAdd_rows_apply_of {N E C w : Nat} (wf : ScatterDims.WF ⟨2, ![N, C]⟩ ⟨2, ![E, 1]⟩ ⟨2, ![E, C]⟩ [1] [0] [0] 1)
    (r : ScatterDims ⟨2, ![N, C]⟩ ⟨2, ![E, 1]⟩ ⟨2, ![E, C]⟩) (hr : r = rowScatter N E C wf)
    (x : (⟨2, ![N, C]⟩ : Shape).Idx → EReal) (idx : IVec ⟨2, ![E, 1]⟩ w) (upd : (⟨2, ![E, C]⟩ : Shape).Idx → EReal)
    (v : Fin N) (c : Fin C) :
    Ideal.hostScatterAdd r x idx upd (ix2 v c)
      = x (ix2 v c) + ∑ e ∈ Finset.univ.filter (fun e : Fin E => (idx (ix2 e (0 : Fin 1))).toInt = (v.val : ℤ)), upd (ix2 e c) := by
  subst hr
  exact scatterAdd_rows_apply wf x idx upd v c

/-- The same at the exact values, stated of the host operation itself (so that a goal's scatter is matched as written). -/
theorem host_scatterAdd_rows_apply {N E C w : Nat} {φ : FTy} (wf : ScatterDims.WF ⟨2, ![N, C]⟩ ⟨2, ![E, 1]⟩ ⟨2, ![E, C]⟩ [1] [0] [0] 1)
    (r : ScatterDims ⟨2, ![N, C]⟩ ⟨2, ![E, 1]⟩ ⟨2, ![E, C]⟩) (hr : r = rowScatter N E C wf)
    (x : FVec Ideal ⟨2, ![N, C]⟩ φ) (idx : IVec ⟨2, ![E, 1]⟩ w) (upd : FVec Ideal ⟨2, ![E, C]⟩ φ) (v : Fin N) (c : Fin C) :
    Host.scatterAdd r x idx upd (ix2 v c)
      = (x (ix2 v c) : EReal) + ∑ e ∈ Finset.univ.filter (fun e : Fin E => (idx (ix2 e (0 : Fin 1))).toInt = (v.val : ℤ)), (upd (ix2 e c) : EReal) :=
  scatterAdd_rows_apply_of wf r hr x idx upd v c

/-! ## Entries of a flat `[N]` operand -/

/-- The dimension numbers of "update `e` goes to operand entry `idx (e, 0)`". -/
abbrev flatScatter (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

section Flat
variable {N E w : Nat} (wf : ScatterDims.WF ⟨1, ![N]⟩ ⟨2, ![E, 1]⟩ ⟨1, ![E]⟩ [] [0] [0] 1)
  (idx : IVec ⟨2, ![E, 1]⟩ w) (e : Fin E)

theorem flatScatter_start0 : (flatScatter N E wf).start (ix1 e) idx 0 = (idx (ix2 e (0 : Fin 1))).toInt := by
  unfold ScatterDims.start
  rw [dif_pos (show (0 : Fin 1) ∈ (flatScatter N E wf).scatterDimsToOperandDims from List.mem_singleton.mpr rfl)]
  have hsi : (flatScatter N E wf).siIdx (ix1 e) ⟨List.idxOf (0 : Fin 1) (flatScatter N E wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

theorem flatScatter_window0 : (flatScatter N E wf).window (ix1 e) 0 = 0 := by
  unfold ScatterDims.window
  rw [dif_neg (by simp [ScatterDims.sKept, Shape.kept])]

/-- Update `e` lands on entry `v` exactly when the edge's signed integer is `v`. -/
theorem flatScatter_lands (v : Fin N) :
    (flatScatter N E wf).resultIdx? (ix1 e) idx = some (ix1 v) ↔ (idx (ix2 e (0 : Fin 1))).toInt = (v.val : ℤ) := by
  have h0 := flatScatter_start0 wf idx e
  have w0 := flatScatter_window0 wf e
  unfold ScatterDims.resultIdx?
  split
  · rename_i h
    constructor
    · intro hs
      have hf := Option.some.inj hs
      have e0 := congrArg (fun f => (f 0).val) hf
      simp only at e0
      have hh0 := h 0
      rw [h0, w0] at e0 hh0
      change ((idx (ix2 e (0 : Fin 1))).toInt + ((0 : ℕ) : ℤ)).toNat = v.val at e0
      omega
    · intro hv
      congr 1
      funext a
      obtain rfl : a = 0 := Subsingleton.elim _ _
      refine Fin.ext ?_
      show ((flatScatter N E wf).start (ix1 e) idx 0 + ((flatScatter N E wf).window (ix1 e) 0 : ℤ)).toNat = v.val
      rw [h0, w0, hv]; omega
  · rename_i h
    constructor
    · intro hs; exact absurd hs (by simp)
    · intro hv
      exfalso
      apply h
      intro a
      obtain rfl : a = 0 := Subsingleton.elim _ _
      show 0 ≤ (flatScatter N E wf).start (ix1 e) idx 0 + ((flatScatter N E wf).window (ix1 e) 0 : ℤ)
        ∧ (flatScatter N E wf).start (ix1 e) idx 0 + ((flatScatter N E wf).window (ix1 e) 0 : ℤ) < (N : ℤ)
      rw [h0, w0, hv]; have := v.isLt; omega

end Flat

/-- A rank-1 index set is its one coordinate's range … -/
def idxEquiv1 {n : Nat} : (⟨1, ![n]⟩ : Shape).Idx ≃ Fin n where
  toFun i := i 0
  invFun a := ix1 a
  left_inv i := (eq_ix1 i).symm
  right_inv _ := rfl
/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- THE FLAT SCATTER-ADD AT `v`, over the extended reals. -/
theorem scatterAdd_flat_apply {N E w : Nat} (wf : ScatterDims.WF ⟨1, ![N]⟩ ⟨2, ![E, 1]⟩ ⟨1, ![E]⟩ [] [0] [0] 1)
    (x : (⟨1, ![N]⟩ : Shape).Idx → EReal) (idx : IVec ⟨2, ![E, 1]⟩ w) (upd : (⟨1, ![E]⟩ : Shape).Idx → EReal) (v : Fin N) :
    Ideal.hostScatterAdd (flatScatter N E wf) x idx upd (ix1 v)
      = x (ix1 v) + ∑ e ∈ Finset.univ.filter (fun e : Fin E => (idx (ix2 e (0 : Fin 1))).toInt = (v.val : ℤ)), upd (ix1 e) := by
  unfold Ideal.hostScatterAdd
  congr 1
  rw [Finset.sum_filter, Finset.sum_filter, sum_idx1]
  refine Finset.sum_congr rfl fun e _ => ?_
  simp only [flatScatter_lands wf idx e v]

/-- The same, for any record that IS those dimension numbers. -/
theorem scatterAdd_flat_apply_of {N E w : Nat} (wf : ScatterDims.WF ⟨1, ![N]⟩ ⟨2, ![E, 1]⟩ ⟨1, ![E]⟩ [] [0] [0] 1)
    (r : ScatterDims ⟨1, ![N]⟩ ⟨2, ![E, 1]⟩ ⟨1, ![E]⟩) (hr : r = flatScatter N E wf)
    (x : (⟨1, ![N]⟩ : Shape).Idx → EReal) (idx : IVec ⟨2, ![E, 1]⟩ w) (upd : (⟨1, ![E]⟩ : Shape).Idx → EReal) (v : Fin N) :
    Ideal.hostScatterAdd r x idx upd (ix1 v)
      = x (ix1 v) + ∑ e ∈ Finset.univ.filter (fun e : Fin E => (idx (ix2 e (0 : Fin 1))).toInt = (v.val : ℤ)), upd (ix1 e) := by
  subst hr
  exact scatterAdd_flat_apply wf x idx upd v

/-- The same at the exact values, stated of the host operation itself. -/
theorem host_scatterAdd_flat_apply {N E w : Nat} {φ : FTy} (wf : ScatterDims.WF ⟨1, ![N]⟩ ⟨2, ![E, 1]⟩ ⟨1, ![E]⟩ [] [0] [0] 1)
    (r : ScatterDims ⟨1, ![N]⟩ ⟨2, ![E, 1]⟩ ⟨1, ![E]⟩) (hr : r = flatScatter N E wf)
    (x : FVec Ideal ⟨1, ![N]⟩ φ) (idx : IVec ⟨2, ![E, 1]⟩ w) (upd : FVec Ideal ⟨1, ![E]⟩ φ) (v : Fin N) :
    Host.scatterAdd r x idx upd (ix1 v)
      = (x (ix1 v) : EReal) + ∑ e ∈ Finset.univ.filter (fun e : Fin E => (idx (ix2 e (0 : Fin 1))).toInt = (v.val : ℤ)), (upd (ix1 e) : EReal) :=
  scatterAdd_flat_apply_of wf r hr x idx upd v

end Cert.RowIndex

end
-- ==== Proof.LibIntScatter.lean ====
/-
  Integer updates accumulated through an integer index column.

  The host's scatter with an integer `add` body is a left fold over the updates in row-major order: update `e`
  replaces the operand entry whose number is `idx (e, 0)` read as a signed integer, NOT clamped, by that entry plus
  the update, and is dropped when the number is negative or at least `N`. Addition of words is associative and
  commutative, so at entry `v` the fold is the operand's word plus the sum of the updates of the edges whose integer
  is exactly `v` (`scatter_addi_flat_apply`, for a flat `[N]` operand, flat `[E]` updates and an index column
  `[E, 1]`, any extents). When every update is the word one, that sum is the NUMBER of such edges as a word, and read
  as a signed integer it is that number as long as there are fewer than 2^31 edges (`toInt_count`): what a segment
  count computed in 32-bit integers holds.
-/
import proofs.«135877_j54176717472000_2_alg».proof.Proof.LibRowScatter
import Idealize.ShloMosaic.Lib.ValueIdx
import Mathlib.Data.BitVec

open scoped BigOperators

noncomputable section

namespace Cert.IntScatter

open Idealize.ShloMosaic Idealize.ShloMosaic.ValueIdx Cert.RowIndex

/-- A left fold whose step adds `upd n` at the one key `g n` names (and nothing when it names none), read at a
    key: the start value there plus the updates of the steps that name it, in list order. -/
theorem foldl_at {ι κ M : Type} [DecidableEq κ] [AddCommMonoid M] (g : ι → Option κ) (upd : ι → M)
    (step : (κ → M) → ι → (κ → M))
    (hstep : ∀ r n k, step r n k = r k + (if g n = some k then upd n else 0))
    (l : List ι) (x : κ → M) (k : κ) :
    (l.foldl step x) k = x k + (l.map (fun n => if g n = some k then upd n else 0)).sum := by
  induction l generalizing x with
  | nil => simp
  | cons a l ih =>
    rw [List.foldl_cons, ih, hstep, List.map_cons, List.sum_cons, add_assoc]

/-- THE FLAT INTEGER SCATTER-ADD AT `v`: the operand's word plus the updates of the edges whose index word is the
    signed integer `v`. -/
theorem scatter_addi_flat_apply {N E w : Nat} (wf : ScatterDims.WF ⟨1, ![N]⟩ ⟨2, ![E, 1]⟩ ⟨1, ![E]⟩ [] [0] [0] 1)
    (r : ScatterDims ⟨1, ![N]⟩ ⟨2, ![E, 1]⟩ ⟨1, ![E]⟩) (hr : r = flatScatter N E wf)
    (x : IVec ⟨1, ![N]⟩ 32) (idx : IVec ⟨2, ![E, 1]⟩ w) (upd : IVec ⟨1, ![E]⟩ 32) (v : Fin N) :
    Host.scatter r IntOp.addi x idx upd (ix1 v)
      = x (ix1 v) + ∑ e ∈ Finset.univ.filter (fun e : Fin E => (idx (ix2 e (0 : Fin 1))).toInt = (v.val : ℤ)), upd (ix1 e) := by
  subst hr
  unfold Host.scatter
  rw [foldl_at (fun n => (flatScatter N E wf).resultIdx? ((⟨1, ![E]⟩ : Shape).rowMajor.symm n) idx)
    (fun n => upd ((⟨1, ![E]⟩ : Shape).rowMajor.symm n))]
  · congr 1
    rw [← Fin.sum_univ_def,
      Equiv.sum_comp (⟨1, ![E]⟩ : Shape).rowMajor.symm
        (fun j => if (flatScatter N E wf).resultIdx? j idx = some (ix1 v) then upd j else 0),
      sum_idx1, Finset.sum_filter]
    refine Finset.sum_congr rfl fun e _ => ?_
    simp only [flatScatter_lands wf idx e v]
  · intro r n k
    cases h : (flatScatter N E wf).resultIdx? ((⟨1, ![E]⟩ : Shape).rowMajor.symm n) idx with
    | none => simp
    | some i =>
      by_cases hk : k = i
      · subst hk; simp [IntOp.addi]
      · have hne : ¬ (some i = some k) := fun e => hk (Option.some.inj e).symm
        simp [hk, hne]

/-- The sum of `n` words one, read as a signed integer, is `n` while `n` is below 2^31. -/
theorem toInt_count {E : Nat} (S : Finset (Fin E)) (hE : E < 2 ^ 31) :
    ((0#32 : BitVec 32) + ∑ _e ∈ S, (1#32 : BitVec 32)).toInt = (S.card : ℤ) := by
  have hc : S.card ≤ E := by
    have := Finset.card_le_univ S
    simpa using this
  have hsum : (∑ _e ∈ S, (1#32 : BitVec 32)) = BitVec.ofNat 32 S.card := by
    rw [Finset.sum_const, nsmul_eq_mul]
    simp [BitVec.natCast_eq_ofNat]
  have h2 : S.card < 2 ^ 31 := lt_of_le_of_lt hc hE
  have hmod : S.card % 2 ^ 32 = S.card := Nat.mod_eq_of_lt (by omega)
  rw [hsum, BitVec.zero_add, BitVec.toInt_eq_toNat_cond, BitVec.toNat_ofNat, hmod]
  split
  · rfl
  · rename_i h; exfalso; apply h; omega

end Cert.IntScatter

end
-- ==== Proof.LibBroadcastInDim.lean ====
/-
  `broadcast_in_dim` of the small shapes around a column, read at an index: a scalar repeated over any shape reads the
  scalar; a vector `[a]` placed as a column `[a, 1]` reads its entry of the row; a column `[a, 1]` repeated along rows of
  width `b` reads the row's one entry. (The operand's unit axes read coordinate zero, its other axes the result's
  coordinate on the axis they are sent to.)
-/
import Idealize.ShloMosaic.Lib.ValueIdx
import Idealize.ShloMosaic.Lib.Pipeline.Value

noncomputable section

namespace Cert.BroadcastInDim

open Idealize.ShloMosaic Idealize.ShloMosaic.ValueIdx

variable {α : Type}

/-- A scalar repeated over a shape reads the scalar everywhere. -/
theorem scalar_apply {s : Shape} (x : (⟨0, ![]⟩ : Shape).Idx → α) (h : (⟨0, ![]⟩ : Shape).BroadcastsInDim s ![]) (i : s.Idx) :
    broadcastInDim s ![] h x i = x ix0 :=
  broadcastInDim_apply ![] h x i ix0 fun a => a.elim0

/-- A vector `[a]` placed as a column `[a, 1]` reads, at `(i, u)`, its entry `i`. -/
theorem column_apply {a : ℕ} (x : (⟨1, ![a]⟩ : Shape).Idx → α) (h : (⟨1, ![a]⟩ : Shape).BroadcastsInDim ⟨2, ![a, 1]⟩ ![0])
    (i : Fin a) (u : Fin 1) : broadcastInDim ⟨2, ![a, 1]⟩ ![0] h x (ix2 i u) = x (ix1 i) := by
  refine broadcastInDim_apply ![0] h x (ix2 i u) (ix1 i) fun ax => ?_
  match ax with
  | ⟨0, _⟩ =>
    show i.val = if a = 1 then 0 else i.val
    split
    · have := i.isLt; omega
    · rfl

/-- A column `[a, 1]` repeated along rows of width `b` reads, at `(p, c)`, the column's entry of row `p`. -/
theorem rows_apply {a b : ℕ} (x : (⟨2, ![a, 1]⟩ : Shape).Idx → α) (h : (⟨2, ![a, 1]⟩ : Shape).BroadcastsInDim ⟨2, ![a, b]⟩ ![0, 1])
    (p : Fin a) (c : Fin b) : broadcastInDim ⟨2, ![a, b]⟩ ![0, 1] h x (ix2 p c) = x (ix2 p (0 : Fin 1)) := by
  refine broadcastInDim_apply ![0, 1] h x (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

end Cert.BroadcastInDim

end
-- ==== Proof.CountK.lean ====
/-
  The kernel's guarded reciprocal, at a node.

  The number of edges that end at node `v` is counted in 32-bit words: a scatter of the word one into zeros, entry `v`
  receiving one word per edge whose target number, read as a signed integer, is `v`. There are 1 200 000 edges, fewer
  than 2^31, so the word read as a signed integer is that number `deg v`, and converted to a float it is the real
  `deg v`. The reciprocal column at `(v, 0)` is therefore `1 / max (deg v) 1` where `deg v > 0` and `0` elsewhere.
-/
import proofs.«135877_j54176717472000_2_alg».proof.Proof.Mid
import proofs.«135877_j54176717472000_2_alg».proof.Proof.Spec
import proofs.«135877_j54176717472000_2_alg».proof.Proof.LibIntScatter
import proofs.«135877_j54176717472000_2_alg».proof.Proof.LibBroadcastInDim
import proofs.«135877_j54176717472000_2_alg».proof.Proof.LibColumnLayout
import Idealize.ShloMosaic.Lib.ValueLayout

set_option maxRecDepth 16384

open scoped BigOperators

noncomputable section

namespace Cert.Schnet

open Idealize.ShloMosaic Idealize.ShloMosaic.ValueIdx

/-- The number of edges whose target number, read as a signed integer, is `v`. -/
def deg (dst : (⟨1, ![1200000]⟩ : Shape).Idx → BitVec 32) (v : Fin 100000) : ℕ :=
  (Finset.univ.filter (fun e : Fin 1200000 => (dst (ix1 e)).toInt = (v.val : ℤ))).card

end Cert.Schnet

namespace Cert.KernelIdeal.CountValue

open Cert.KernelIdeal Cert.KernelIdeal.Gen Cert.KernelIdeal.MidValue Cert.Schnet
open Idealize.ShloMosaic Idealize.ShloMosaic.TcCoe Idealize.ShloMosaic.ValueIdx

/-- The counting word at node `v`, read as a signed integer, is the number of edges that end there. -/
theorem cntWord_toInt (dst : (⟨S1200000, .i32⟩ : BufTy).Contents (Elt Ideal)) (v : Fin 100000) :
    (cntWord (F := Ideal) dst (ix1 v)).toInt = (deg dst v : ℤ) := by
  unfold cntWord
  rw [Cert.IntScatter.scatter_addi_flat_apply scatter_S100000_S1200000x1_S1200000_n_0_0_1_wf scatter_S100000_S1200000x1_S1200000_n_0_0_1 rfl]
  have hp : ∀ e : Fin 1200000, (broadcastInDim S1200000x1 ![0] bcast_S1200000_S1200000x1_0 dst (ix2 e (0 : Fin 1))).toInt = (v.val : ℤ)
      ↔ (dst (ix1 e)).toInt = (v.val : ℤ) := fun e => by
    rw [Cert.BroadcastInDim.column_apply dst bcast_S1200000_S1200000x1_0 e 0]
  have hu : ∀ e : Fin 1200000, broadcastInDim S1200000 ![] bcast_S_S1200000 (constantI S_ 32 1#32) (ix1 e) = 1#32 :=
    fun e => Cert.BroadcastInDim.scalar_apply _ _ _
  have h0 : broadcastInDim S100000 ![] bcast_S_S100000 (constantI S_ 32 0#32) (ix1 v) = 0#32 :=
    Cert.BroadcastInDim.scalar_apply _ _ _
  rw [h0, Finset.filter_congr (s := Finset.univ)
      (p := fun e : Fin 1200000 => (broadcastInDim S1200000x1 ![0] bcast_S1200000_S1200000x1_0 dst (ix2 e (0 : Fin 1))).toInt = (v.val : ℤ))
      (q := fun e : Fin 1200000 => (dst (ix1 e)).toInt = (v.val : ℤ)) (fun e _ => hp e),
    Finset.sum_congr rfl (fun e _ => hu e)]
  unfold deg
  exact Cert.IntScatter.toInt_count _ (by norm_num)

/-- The count as a float is the real number of those edges. -/
theorem cnt_at (dst : (⟨S1200000, .i32⟩ : BufTy).Contents (Elt Ideal)) (v : Fin 100000) :
    sitofp (F := Ideal) .f32 (cntWord (F := Ideal) dst) (ix1 v) = ((deg dst v : ℝ) : EReal) := by
  show (((cntWord (F := Ideal) dst (ix1 v)).toInt : ℝ) : EReal) = _
  rw [cntWord_toInt]
  norm_cast

/-- THE RECIPROCAL COLUMN AT `(v, 0)`. -/
theorem invCol_at (dst : (⟨S1200000, .i32⟩ : BufTy).Contents (Elt Ideal)) (v : Fin 100000) :
    invCol (F := Ideal) dst (ix2 v (0 : Fin 1))
      = Scalar.select (Ideal.cmp .ogt (((deg dst v : ℝ) : EReal)) z0) (Ideal.div one1 (max (((deg dst v : ℝ) : EReal)) one1)) z0 := by
  unfold invCol
  rw [Cert.ColumnLayout.shapeCast_a_a1_apply, select_apply, cmpf_apply]
  show Scalar.select (Ideal.cmp .ogt (sitofp (F := Ideal) .f32 (cntWord (F := Ideal) dst) (ix1 v))
        (broadcastInDim S100000 ![] bcast_S_S100000 (constant (F := Ideal) S_ .f32 0x00000000#32) (ix1 v)))
      (Ideal.div (broadcastInDim S100000 ![] bcast_S_S100000 (constant (F := Ideal) S_ .f32 0x3F800000#32) (ix1 v))
        (max (sitofp (F := Ideal) .f32 (cntWord (F := Ideal) dst) (ix1 v))
          (broadcastInDim S100000 ![] bcast_S_S100000 (constant (F := Ideal) S_ .f32 0x3F800000#32) (ix1 v))))
      (broadcastInDim S100000 ![] bcast_S_S100000 (constant (F := Ideal) S_ .f32 0x00000000#32) (ix1 v)) = _
  rw [cnt_at, Cert.BroadcastInDim.scalar_apply, Cert.BroadcastInDim.scalar_apply]
  rfl

end Cert.KernelIdeal.CountValue

end
-- ==== Proof.RefCount.lean ====
/-
  The reference's float count of the edges that end at a node.

  The reference scatters the float one of every edge into a column of zeros; at node `v` the column holds zero plus
  one float one per edge whose target number, read as a signed integer, is `v`: the real number of such edges.
-/
import proofs.«135877_j54176717472000_2_alg».proof.Proof.RefRead
import proofs.«135877_j54176717472000_2_alg».proof.Proof.CountK
import proofs.«135877_j54176717472000_2_alg».proof.Proof.LibRowScatter

set_option maxRecDepth 16384

open scoped BigOperators

noncomputable section

namespace Cert.ReferenceIdeal.RefValue

open Cert.ReferenceIdeal Cert.ReferenceIdeal.Read Cert.Schnet
open Idealize.ShloMosaic Idealize.ShloMosaic.TcCoe Idealize.ShloMosaic.ValueIdx
open Cert.KernelIdeal.MidValue (segSum invCol biasRow)

theorem idx28 (e : Fin 1200000) (u : Fin 1) : idx_main_v28 (ix2 e u) = ix1 e :=
  funext fun a => Fin.ext (by match a with | ⟨0, _⟩ => rfl)

/-- The reference's float count at node `v` is the real number of edges that end there. -/
theorem ref_count (x4 : (⟨S1200000, .i32⟩ : BufTy).Contents (Elt Ideal)) (v : Fin 100000) :
    val_main_v29 (F := Ideal) x4 (ix2 v (0 : Fin 1)) = ((deg x4 v : ℝ) : EReal) := by
  unfold val_main_v29
  rw [Cert.RowIndex.host_scatterAdd_rows_apply Cert.ReferenceIdeal.Gen.scatter_S100000x1_S1200000x1_S1200000x1_1_0_0_1_wf
    scatter_S100000x1_S1200000x1_S1200000x1_1_0_0_1 rfl]
  have hx : (val_main_v27 (F := Ideal) (ix2 v (0 : Fin 1)) : EReal) = 0 := by
    rw [val_main_v27_apply, val_main_cst_4_apply]; exact z0_eq
  have hu : ∀ e : Fin 1200000, (val_main_v26 (F := Ideal) (ix2 e (0 : Fin 1)) : EReal) = 1 := fun e => by
    rw [val_main_v26_apply, val_main_cst_3_apply]; exact one1_eq
  have hp : ∀ e : Fin 1200000, (val_main_v28 (F := Ideal) x4 (ix2 e (0 : Fin 1))).toInt = (v.val : ℤ)
      ↔ (x4 (ix1 e)).toInt = (v.val : ℤ) := fun e => by
    rw [val_main_v28_apply, idx28]
  rw [hx, zero_add, Finset.filter_congr (s := Finset.univ)
      (p := fun e : Fin 1200000 => (val_main_v28 (F := Ideal) x4 (ix2 e (0 : Fin 1))).toInt = (v.val : ℤ))
      (q := fun e : Fin 1200000 => (x4 (ix1 e)).toInt = (v.val : ℤ)) (fun e _ => hp e),
    Finset.sum_congr rfl (fun e _ => hu e), Finset.sum_const, nsmul_one_ereal]
  unfold deg
  rfl

end Cert.ReferenceIdeal.RefValue

end
-- ==== Proof.RefAgg.lean ====
/-
  The reference's guarded mean is the segment sum times the kernel's guarded reciprocal.

  At `(v, j)` the reference divides the segment sum by `max n 1` where the count `n` of node `v` is positive and takes
  zero elsewhere; the kernel's column holds `1 / max n 1` there, or zero. With both counts the real number of edges
  that end at `v`, the two are equal at every extended real segment sum.
-/
import proofs.«135877_j54176717472000_2_alg».proof.Proof.RefCount

set_option maxRecDepth 16384

open scoped BigOperators

noncomputable section

namespace Cert.ReferenceIdeal.RefValue

open Cert.ReferenceIdeal Cert.ReferenceIdeal.Read Cert.Schnet
open Idealize.ShloMosaic Idealize.ShloMosaic.TcCoe Idealize.ShloMosaic.ValueIdx
open Cert.KernelIdeal.MidValue (segSum invCol biasRow)

theorem idx34 (v : Fin 100000) (j : Fin 64) : idx_main_v34 (ix2 v j) = ix2 v (0 : Fin 1) :=
  funext fun a => Fin.ext (by match a with | ⟨0, _⟩ => rfl | ⟨1, _⟩ => rfl)
theorem idxc21 (v : Fin 100000) (j : Fin 64) : idx_main_call2_v1 (ix2 v j) = ix2 v (0 : Fin 1) :=
  funext fun a => Fin.ext (by match a with | ⟨0, _⟩ => rfl | ⟨1, _⟩ => rfl)

/-- The reference's guarded mean at `(v, j)` is the segment sum there times the kernel's reciprocal column at `v`. -/
theorem agg_at (x0 : (⟨S1200000x128, .f32⟩ : BufTy).Contents (Elt Ideal)) (x1 : (⟨S1200000x64, .f32⟩ : BufTy).Contents (Elt Ideal))
    (x2 : (⟨S100000x64, .f32⟩ : BufTy).Contents (Elt Ideal)) (x3 x4 : (⟨S1200000, .i32⟩ : BufTy).Contents (Elt Ideal))
    (x5 : (⟨S128x64, .f32⟩ : BufTy).Contents (Elt Ideal)) (x6 : (⟨S64, .f32⟩ : BufTy).Contents (Elt Ideal))
    (x7 : (⟨S64x64, .f32⟩ : BufTy).Contents (Elt Ideal)) (x8 : (⟨S64, .f32⟩ : BufTy).Contents (Elt Ideal)) (v : Fin 100000) (j : Fin 64) :
    val_main_v36 (F := Ideal) x0 x1 x2 x3 x4 x5 x6 x7 x8 (ix2 v j)
      = val_main_v25 (F := Ideal) x0 x1 x2 x3 x4 x5 x6 x7 x8 (ix2 v j) * invCol (F := Ideal) x4 (ix2 v (0 : Fin 1)) := by
  rw [Cert.KernelIdeal.CountValue.invCol_at, mean_two_ways]
  rw [val_main_v36_apply, val_main_call2_v1_apply, idxc21, val_main_v31_apply, ref_count, val_main_v35_apply, val_main_v34_apply, idx34,
    val_main_v33_apply, ref_count, val_main_call2_v2_apply, val_main_call2_v0_apply, val_main_cst_7_apply, val_main_v30_apply,
    val_main_cst_5_apply, val_main_v32_apply, val_main_cst_6_apply]
  rfl

end Cert.ReferenceIdeal.RefValue

end
-- ==== Proof.RefEdge.lean ====
/-
  The reference's gated filter, read at an index.

  Its two matrix products are plain sums along a row of the left operand and a column of the right, its bias
  broadcasts read the bias at the column, and its softplus is `ssp` entry by entry: at `(e, d)` the stage is the
  two-layer filter of edge `e`'s radial features at column `d`, times the edge's feature — the array function the
  edge kernel's blocks tile, with the biases read as rows.
-/
import proofs.«135877_j54176717472000_2_alg».proof.Proof.RefRead
import proofs.«135877_j54176717472000_2_alg».proof.Proof.Edge
import proofs.«135877_j54176717472000_2_alg».proof.Proof.Mid
import Idealize.ShloMosaic.Lib.ValueLayout

set_option maxRecDepth 16384

open scoped BigOperators

noncomputable section

namespace Cert.ReferenceIdeal.RefValue

open Cert.ReferenceIdeal Cert.ReferenceIdeal.Read Cert.Schnet
open Idealize.ShloMosaic Idealize.ShloMosaic.TcCoe Idealize.ShloMosaic.ValueIdx
open Cert.KernelIdeal.MidValue (segSum invCol biasRow)

theorem lidx0 (e : Fin 1200000) (d : Fin 64) (k : Fin 128) : lidx_main_v0 (ix2 e d) k = ix2 e k :=
  funext fun a => Fin.ext (by match a with | ⟨0, _⟩ => rfl | ⟨1, _⟩ => rfl)
theorem ridx0 (e : Fin 1200000) (d : Fin 64) (k : Fin 128) : ridx_main_v0 (ix2 e d) k = ix2 k d :=
  funext fun a => Fin.ext (by match a with | ⟨0, _⟩ => rfl | ⟨1, _⟩ => rfl)
theorem idx2 (e : Fin 1200000) (d : Fin 64) : idx_main_v2 (ix2 e d) = ix2 (0 : Fin 1) d :=
  funext fun a => Fin.ext (by match a with | ⟨0, _⟩ => rfl | ⟨1, _⟩ => rfl)
theorem idx1 (u : Fin 1) (d : Fin 64) : idx_main_v1 (ix2 u d) = ix1 d :=
  funext fun a => Fin.ext (by match a with | ⟨0, _⟩ => rfl)
theorem lidx7 (e : Fin 1200000) (d : Fin 64) (k : Fin 64) : lidx_main_v7 (ix2 e d) k = ix2 e k :=
  funext fun a => Fin.ext (by match a with | ⟨0, _⟩ => rfl | ⟨1, _⟩ => rfl)
theorem ridx7 (e : Fin 1200000) (d : Fin 64) (k : Fin 64) : ridx_main_v7 (ix2 e d) k = ix2 k d :=
  funext fun a => Fin.ext (by match a with | ⟨0, _⟩ => rfl | ⟨1, _⟩ => rfl)
theorem idx9 (e : Fin 1200000) (d : Fin 64) : idx_main_v9 (ix2 e d) = ix2 (0 : Fin 1) d :=
  funext fun a => Fin.ext (by match a with | ⟨0, _⟩ => rfl | ⟨1, _⟩ => rfl)
theorem idx8 (u : Fin 1) (d : Fin 64) : idx_main_v8 (ix2 u d) = ix1 d :=
  funext fun a => Fin.ext (by match a with | ⟨0, _⟩ => rfl)

/-- A bias row read at a column is the bias vector's entry. -/
theorem biasRow_at (b : (⟨Cert.KernelIdeal.S64, .f32⟩ : BufTy).Contents (Elt Ideal)) (k : Fin 64) :
    biasRow (F := Ideal) b (ix2 (0 : Fin 1) k) = b (ix1 k) :=
  shapeCast_a_1a_apply _ _ _ _

/-- The reference's gated filter is the kernel's array function of the argument arrays, the biases as rows. -/
theorem ref_eh2 (x0 : (⟨S1200000x128, .f32⟩ : BufTy).Contents (Elt Ideal)) (x1 : (⟨S1200000x64, .f32⟩ : BufTy).Contents (Elt Ideal))
    (x5 : (⟨S128x64, .f32⟩ : BufTy).Contents (Elt Ideal)) (x6 : (⟨S64, .f32⟩ : BufTy).Contents (Elt Ideal))
    (x7 : (⟨S64x64, .f32⟩ : BufTy).Contents (Elt Ideal)) (x8 : (⟨S64, .f32⟩ : BufTy).Contents (Elt Ideal)) :
    val_main_v14 (F := Ideal) x0 x1 x5 x6 x7 x8
      = Cert.KernelIdeal.EdgeValue.G0 x0 x1 x5 (biasRow (F := Ideal) x6) x7 (biasRow (F := Ideal) x8) := by
  funext i
  obtain ⟨e, d, rfl⟩ : ∃ (e : Fin 1200000) (d : Fin 64), i = ix2 e d := ⟨i 0, i 1, eq_ix2 i⟩
  rw [Cert.KernelIdeal.EdgeValue.G0_apply]
  unfold Cert.KernelIdeal.EdgeValue.edgeEntry mlpRow linRow ssp
  simp only [val_main_v0_apply, val_main_v1_apply, val_main_v2_apply, val_main_v3_apply, val_main_call0_cst_apply, val_main_call0_v0_apply, val_main_call0_v1_apply, val_main_call0_v2_apply, val_main_call0_v3_apply, val_main_call0_v4_apply, val_main_call0_v5_apply, val_main_call0_v6_apply, val_main_call0_v7_apply, val_main_call0_v8_apply, val_main_call0_v9_apply, val_main_call0_v10_apply, val_main_call0_v11_apply, val_main_v4_apply, val_main_cst_apply, val_main_v5_apply, val_main_v6_apply, val_main_v7_apply, val_main_v8_apply, val_main_v9_apply, val_main_v10_apply, val_main_call1_cst_apply, val_main_call1_v0_apply, val_main_call1_v1_apply, val_main_call1_v2_apply, val_main_call1_v3_apply, val_main_call1_v4_apply, val_main_call1_v5_apply, val_main_call1_v6_apply, val_main_call1_v7_apply, val_main_call1_v8_apply, val_main_call1_v9_apply, val_main_call1_v10_apply, val_main_call1_v11_apply, val_main_v11_apply, val_main_cst_0_apply, val_main_v12_apply, val_main_v13_apply, val_main_v14_apply,
    lidx0, ridx0, idx2, idx1, lidx7, ridx7, idx9, idx8, biasRow_at]
  rfl

end Cert.ReferenceIdeal.RefValue

end
-- ==== Proof.RefNode.lean ====
/-
  The reference's node update, read at an index, and its segment sums.

  The last two layers are plain sums, bias reads and `ssp` entry by entry, on the guarded mean of node `v`'s messages;
  that mean is the segment sum times the kernel's reciprocal column (`agg_at`). So the reference's result is the array
  function the node kernel's blocks tile, of the reference's own segment sums, the kernel's reciprocal column, and the
  biases read as rows. The segment sums themselves are the same gather, product and scatter the kernel's host
  operations apply, of the reference's gated filter.
-/
import proofs.«135877_j54176717472000_2_alg».proof.Proof.RefAgg
import proofs.«135877_j54176717472000_2_alg».proof.Proof.RefEdge
import proofs.«135877_j54176717472000_2_alg».proof.Proof.Node

set_option maxRecDepth 16384

open scoped BigOperators

noncomputable section

namespace Cert.ReferenceIdeal.RefValue

open Cert.ReferenceIdeal Cert.ReferenceIdeal.Read Cert.Schnet
open Idealize.ShloMosaic Idealize.ShloMosaic.TcCoe Idealize.ShloMosaic.ValueIdx
open Cert.KernelIdeal.MidValue (segSum invCol biasRow)

theorem lidx37 (v : Fin 100000) (d : Fin 64) (k : Fin 64) : lidx_main_v37 (ix2 v d) k = ix2 v k :=
  funext fun a => Fin.ext (by match a with | ⟨0, _⟩ => rfl | ⟨1, _⟩ => rfl)
theorem ridx37 (v : Fin 100000) (d : Fin 64) (k : Fin 64) : ridx_main_v37 (ix2 v d) k = ix2 k d :=
  funext fun a => Fin.ext (by match a with | ⟨0, _⟩ => rfl | ⟨1, _⟩ => rfl)
theorem idx39 (v : Fin 100000) (d : Fin 64) : idx_main_v39 (ix2 v d) = ix2 (0 : Fin 1) d :=
  funext fun a => Fin.ext (by match a with | ⟨0, _⟩ => rfl | ⟨1, _⟩ => rfl)
theorem idx38 (u : Fin 1) (d : Fin 64) : idx_main_v38 (ix2 u d) = ix1 d :=
  funext fun a => Fin.ext (by match a with | ⟨0, _⟩ => rfl)
theorem lidx44 (v : Fin 100000) (d : Fin 64) (k : Fin 64) : lidx_main_v44 (ix2 v d) k = ix2 v k :=
  funext fun a => Fin.ext (by match a with | ⟨0, _⟩ => rfl | ⟨1, _⟩ => rfl)
theorem ridx44 (v : Fin 100000) (d : Fin 64) (k : Fin 64) : ridx_main_v44 (ix2 v d) k = ix2 k d :=
  funext fun a => Fin.ext (by match a with | ⟨0, _⟩ => rfl | ⟨1, _⟩ => rfl)
theorem idx46 (v : Fin 100000) (d : Fin 64) : idx_main_v46 (ix2 v d) = ix2 (0 : Fin 1) d :=
  funext fun a => Fin.ext (by match a with | ⟨0, _⟩ => rfl | ⟨1, _⟩ => rfl)
theorem idx45 (u : Fin 1) (d : Fin 64) : idx_main_v45 (ix2 u d) = ix1 d :=
  funext fun a => Fin.ext (by match a with | ⟨0, _⟩ => rfl)

/-- The third layer before its softplus, at `(v, k)`: a plain sum over the guarded mean of node `v`, plus the bias. -/
theorem layer3_at (x0 : (⟨S1200000x128, .f32⟩ : BufTy).Contents (Elt Ideal)) (x1 : (⟨S1200000x64, .f32⟩ : BufTy).Contents (Elt Ideal))
    (x2 : (⟨S100000x64, .f32⟩ : BufTy).Contents (Elt Ideal)) (x3 x4 : (⟨S1200000, .i32⟩ : BufTy).Contents (Elt Ideal))
    (x5 : (⟨S128x64, .f32⟩ : BufTy).Contents (Elt Ideal)) (x6 : (⟨S64, .f32⟩ : BufTy).Contents (Elt Ideal))
    (x7 : (⟨S64x64, .f32⟩ : BufTy).Contents (Elt Ideal)) (x8 : (⟨S64, .f32⟩ : BufTy).Contents (Elt Ideal))
    (x9 : (⟨S64x64, .f32⟩ : BufTy).Contents (Elt Ideal)) (x10 : (⟨S64, .f32⟩ : BufTy).Contents (Elt Ideal)) (v : Fin 100000) (k : Fin 64) :
    val_main_v40 (F := Ideal) x0 x1 x2 x3 x4 x5 x6 x7 x8 x9 x10 (ix2 v k)
      = linRow (fun j : Fin 64 => val_main_v36 (F := Ideal) x0 x1 x2 x3 x4 x5 x6 x7 x8 (ix2 v j)) (fun (j : Fin 64) (k : Fin 64) => x9 (ix2 j k))
          (fun k : Fin 64 => x10 (ix1 k)) k := by
  rw [val_main_v40_apply, val_main_v37_apply, val_main_v39_apply, val_main_v38_apply, idx39, idx38]
  simp only [lidx37, ridx37]
  generalize val_main_v36 (F := Ideal) x0 x1 x2 x3 x4 x5 x6 x7 x8 = g
  rfl

/-- The third layer's softplus, entry by entry. -/
theorem ssp3_at (x0 : (⟨S1200000x128, .f32⟩ : BufTy).Contents (Elt Ideal)) (x1 : (⟨S1200000x64, .f32⟩ : BufTy).Contents (Elt Ideal))
    (x2 : (⟨S100000x64, .f32⟩ : BufTy).Contents (Elt Ideal)) (x3 x4 : (⟨S1200000, .i32⟩ : BufTy).Contents (Elt Ideal))
    (x5 : (⟨S128x64, .f32⟩ : BufTy).Contents (Elt Ideal)) (x6 : (⟨S64, .f32⟩ : BufTy).Contents (Elt Ideal))
    (x7 : (⟨S64x64, .f32⟩ : BufTy).Contents (Elt Ideal)) (x8 : (⟨S64, .f32⟩ : BufTy).Contents (Elt Ideal))
    (x9 : (⟨S64x64, .f32⟩ : BufTy).Contents (Elt Ideal)) (x10 : (⟨S64, .f32⟩ : BufTy).Contents (Elt Ideal)) (i : S100000x64.Idx) :
    val_main_v43 (F := Ideal) x0 x1 x2 x3 x4 x5 x6 x7 x8 x9 x10 i = ssp (val_main_v40 (F := Ideal) x0 x1 x2 x3 x4 x5 x6 x7 x8 x9 x10 i) := by
  rw [val_main_v43_apply, val_main_v41_apply, val_main_call3_v4_apply, val_main_call3_v3_apply, val_main_call3_v6_apply,
    val_main_call3_v11_apply, val_main_call3_v1_apply, val_main_call3_v10_apply, val_main_call3_v9_apply, val_main_call3_v8_apply,
    val_main_call3_v7_apply, val_main_call3_v3_apply]
  generalize val_main_v40 (F := Ideal) x0 x1 x2 x3 x4 x5 x6 x7 x8 x9 x10 i = z
  rw [val_main_call3_v0_apply, val_main_call3_v2_apply, val_main_call3_v5_apply, val_main_v42_apply, val_main_cst_8_apply]
  simp only [val_main_call3_cst_apply]
  rfl

/-- The fourth layer before its softplus, at `(v, d)`. -/
theorem layer4_at (x0 : (⟨S1200000x128, .f32⟩ : BufTy).Contents (Elt Ideal)) (x1 : (⟨S1200000x64, .f32⟩ : BufTy).Contents (Elt Ideal))
    (x2 : (⟨S100000x64, .f32⟩ : BufTy).Contents (Elt Ideal)) (x3 x4 : (⟨S1200000, .i32⟩ : BufTy).Contents (Elt Ideal))
    (x5 : (⟨S128x64, .f32⟩ : BufTy).Contents (Elt Ideal)) (x6 : (⟨S64, .f32⟩ : BufTy).Contents (Elt Ideal))
    (x7 : (⟨S64x64, .f32⟩ : BufTy).Contents (Elt Ideal)) (x8 : (⟨S64, .f32⟩ : BufTy).Contents (Elt Ideal))
    (x9 : (⟨S64x64, .f32⟩ : BufTy).Contents (Elt Ideal)) (x10 : (⟨S64, .f32⟩ : BufTy).Contents (Elt Ideal))
    (x11 : (⟨S64x64, .f32⟩ : BufTy).Contents (Elt Ideal)) (x12 : (⟨S64, .f32⟩ : BufTy).Contents (Elt Ideal)) (v : Fin 100000) (d : Fin 64) :
    val_main_v47 (F := Ideal) x0 x1 x2 x3 x4 x5 x6 x7 x8 x9 x10 x11 x12 (ix2 v d)
      = linRow (fun k : Fin 64 => val_main_v43 (F := Ideal) x0 x1 x2 x3 x4 x5 x6 x7 x8 x9 x10 (ix2 v k)) (fun (k : Fin 64) (d : Fin 64) => x11 (ix2 k d))
          (fun d : Fin 64 => x12 (ix1 d)) d := by
  rw [val_main_v47_apply, val_main_v44_apply, val_main_v46_apply, val_main_v45_apply, idx46, idx45]
  simp only [lidx44, ridx44]
  generalize val_main_v43 (F := Ideal) x0 x1 x2 x3 x4 x5 x6 x7 x8 x9 x10 = g
  rfl

/-- The fourth layer's softplus, entry by entry. -/
theorem ssp4_at (x0 : (⟨S1200000x128, .f32⟩ : BufTy).Contents (Elt Ideal)) (x1 : (⟨S1200000x64, .f32⟩ : BufTy).Contents (Elt Ideal))
    (x2 : (⟨S100000x64, .f32⟩ : BufTy).Contents (Elt Ideal)) (x3 x4 : (⟨S1200000, .i32⟩ : BufTy).Contents (Elt Ideal))
    (x5 : (⟨S128x64, .f32⟩ : BufTy).Contents (Elt Ideal)) (x6 : (⟨S64, .f32⟩ : BufTy).Contents (Elt Ideal))
    (x7 : (⟨S64x64, .f32⟩ : BufTy).Contents (Elt Ideal)) (x8 : (⟨S64, .f32⟩ : BufTy).Contents (Elt Ideal))
    (x9 : (⟨S64x64, .f32⟩ : BufTy).Contents (Elt Ideal)) (x10 : (⟨S64, .f32⟩ : BufTy).Contents (Elt Ideal))
    (x11 : (⟨S64x64, .f32⟩ : BufTy).Contents (Elt Ideal)) (x12 : (⟨S64, .f32⟩ : BufTy).Contents (Elt Ideal)) (i : S100000x64.Idx) :
    val_main_v50 (F := Ideal) x0 x1 x2 x3 x4 x5 x6 x7 x8 x9 x10 x11 x12 i = ssp (val_main_v47 (F := Ideal) x0 x1 x2 x3 x4 x5 x6 x7 x8 x9 x10 x11 x12 i) := by
  rw [val_main_v50_apply, val_main_v48_apply, val_main_call4_v4_apply, val_main_call4_v3_apply, val_main_call4_v6_apply,
    val_main_call4_v11_apply, val_main_call4_v1_apply, val_main_call4_v10_apply, val_main_call4_v9_apply, val_main_call4_v8_apply,
    val_main_call4_v7_apply, val_main_call4_v3_apply]
  generalize val_main_v47 (F := Ideal) x0 x1 x2 x3 x4 x5 x6 x7 x8 x9 x10 x11 x12 i = z
  rw [val_main_call4_v0_apply, val_main_call4_v2_apply, val_main_call4_v5_apply, val_main_v49_apply, val_main_cst_9_apply]
  simp only [val_main_call4_cst_apply]
  rfl

/-- The reference's result is the kernel's node update of the reference's own segment sums, the kernel's reciprocal
    column, and the last two layers' weights and biases (the biases as rows). -/
theorem ref_out (x0 : (⟨S1200000x128, .f32⟩ : BufTy).Contents (Elt Ideal)) (x1 : (⟨S1200000x64, .f32⟩ : BufTy).Contents (Elt Ideal))
    (x2 : (⟨S100000x64, .f32⟩ : BufTy).Contents (Elt Ideal)) (x3 x4 : (⟨S1200000, .i32⟩ : BufTy).Contents (Elt Ideal))
    (x5 : (⟨S128x64, .f32⟩ : BufTy).Contents (Elt Ideal)) (x6 : (⟨S64, .f32⟩ : BufTy).Contents (Elt Ideal))
    (x7 : (⟨S64x64, .f32⟩ : BufTy).Contents (Elt Ideal)) (x8 : (⟨S64, .f32⟩ : BufTy).Contents (Elt Ideal))
    (x9 : (⟨S64x64, .f32⟩ : BufTy).Contents (Elt Ideal)) (x10 : (⟨S64, .f32⟩ : BufTy).Contents (Elt Ideal))
    (x11 : (⟨S64x64, .f32⟩ : BufTy).Contents (Elt Ideal)) (x12 : (⟨S64, .f32⟩ : BufTy).Contents (Elt Ideal)) :
    val_main_v50 (F := Ideal) x0 x1 x2 x3 x4 x5 x6 x7 x8 x9 x10 x11 x12
      = Cert.KernelIdeal.NodeValue.G1 (val_main_v25 (F := Ideal) x0 x1 x2 x3 x4 x5 x6 x7 x8) (invCol (F := Ideal) x4) x9
          (biasRow (F := Ideal) x10) x11 (biasRow (F := Ideal) x12) := by
  funext i
  obtain ⟨v, d, rfl⟩ : ∃ (v : Fin 100000) (d : Fin 64), i = ix2 v d := ⟨i 0, i 1, eq_ix2 i⟩
  rw [Cert.KernelIdeal.NodeValue.G1_apply, ssp4_at, layer4_at]
  unfold Cert.KernelIdeal.NodeValue.nodeEntry mlpRow
  simp only [ssp3_at, layer3_at, agg_at, biasRow_at]

/-- The reference's segment sums are the kernel's host term of the reference's gated filter: the same gather,
    product and scatter, operation by operation. -/
theorem seg_eq (x0 : (⟨S1200000x128, .f32⟩ : BufTy).Contents (Elt Ideal)) (x1 : (⟨S1200000x64, .f32⟩ : BufTy).Contents (Elt Ideal))
    (x2 : (⟨S100000x64, .f32⟩ : BufTy).Contents (Elt Ideal)) (x3 x4 : (⟨S1200000, .i32⟩ : BufTy).Contents (Elt Ideal))
    (x5 : (⟨S128x64, .f32⟩ : BufTy).Contents (Elt Ideal)) (x6 : (⟨S64, .f32⟩ : BufTy).Contents (Elt Ideal))
    (x7 : (⟨S64x64, .f32⟩ : BufTy).Contents (Elt Ideal)) (x8 : (⟨S64, .f32⟩ : BufTy).Contents (Elt Ideal)) :
    val_main_v25 (F := Ideal) x0 x1 x2 x3 x4 x5 x6 x7 x8
      = segSum (F := Ideal) x2 x3 x4 (val_main_v14 (F := Ideal) x0 x1 x5 x6 x7 x8) := by
  unfold val_main_v25 val_main_v22 val_main_v21 val_main_v20 val_main_v19 val_main_v18 val_main_v17 val_main_v16 val_main_v15
    val_main_c val_main_c_1 val_main_v23 val_main_cst_2 val_main_v24 segSum Cert.KernelIdeal.MidValue.srcCol
  generalize val_main_v14 (F := Ideal) x0 x1 x5 x6 x7 x8 = eh2
  have hs : Cert.ReferenceIdeal.scatter_S100000x64_S1200000x1_S1200000x64_1_0_0_1
      = Cert.KernelIdeal.scatter_S100000x64_S1200000x1_S1200000x64_1_0_0_1 := rfl
  have hg : Cert.ReferenceIdeal.gather_S100000x64_S1200000x1_S1200000x64_1_0_n_n_0_1_164
      = Cert.KernelIdeal.gather_S100000x64_S1200000x1_S1200000x64_1_0_n_n_0_1_164 := rfl
  rw [hs, hg]

end Cert.ReferenceIdeal.RefValue

end
-- ==== Proof.lean ====
/-
  A continuous-filter message-passing layer, kernel against reference, over the extended reals.

  Both programs compute, for every node `v` and column `d`,

      out (v, d) = ssp (ssp (agg v · W3 + b3) · W4 + b4) (d),
      agg (v, j) = (∑ over the edges e ending at v of nh (src e, j) · filter (e, j) · eh (e, j)) / (number of such edges)
                   (zero where there is none),
      filter e   = ssp (ssp (bf e · W1 + b1) · W2 + b2),

  with `ssp` the shifted softplus. The kernel computes the gated filter on a grid of 150 row blocks and the node update
  on a grid of 20 row blocks, with a gather, two segment sums and a guarded reciprocal on the host in between; the
  reference is whole-array operations. Over the extended reals a change of float format is the identity, a matrix
  product into a zero tile is the plain sum the host's product is, and a block of rows depends only on its own rows,
  so the two gated filters are one array (`ref_eh2`, `edge_out`); the gather, the product and the float segment sum
  are the same operations on it (`seg_eq`). The programs differ in the mean: the kernel counts the edges of a node in
  32-bit integers, converts the count, and multiplies the segment sum by `1 / max n 1` where `n > 0` and by `0`
  elsewhere; the reference counts in floats and divides by `max n 1` where `n > 0`, taking `0` elsewhere. Both counts
  are the real number of edges that end at the node (fewer than 2^31 edges in all), and the two means agree at every
  extended real segment sum (`mean_two_ways`): no finiteness of the inputs is used. The idealized kernel is the
  kernel's own text (no rewrite), and each program's argument arrays end as launched.
-/
import proofs.«135877_j54176717472000_2_alg».proof.Defs
import proofs.«135877_j54176717472000_2_alg».proof.Proof.Gen.Kernel
import proofs.«135877_j54176717472000_2_alg».proof.Proof.Gen.Kernel.Skeleton
import proofs.«135877_j54176717472000_2_alg».proof.Proof.Gen.Kernel.Launch
import proofs.«135877_j54176717472000_2_alg».proof.Proof.Gen.Kernel.Points
import proofs.«135877_j54176717472000_2_alg».proof.Proof.Gen.Kernel.Frame
import proofs.«135877_j54176717472000_2_alg».proof.Proof.Gen.KernelIdeal
import proofs.«135877_j54176717472000_2_alg».proof.Proof.Gen.KernelIdeal.Skeleton
import proofs.«135877_j54176717472000_2_alg».proof.Proof.Gen.KernelIdeal.Launch
import proofs.«135877_j54176717472000_2_alg».proof.Proof.Gen.KernelIdeal.Points
import proofs.«135877_j54176717472000_2_alg».proof.Proof.Gen.KernelIdeal.Frame
import proofs.«135877_j54176717472000_2_alg».proof.Proof.Gen.ReferenceIdeal
import proofs.«135877_j54176717472000_2_alg».proof.Proof.Gen.Pre_finite_inputs
import proofs.«135877_j54176717472000_2_alg».proof.Proof.RefRead
import proofs.«135877_j54176717472000_2_alg».proof.Proof.KernelRun
import proofs.«135877_j54176717472000_2_alg».proof.Proof.KernelValue
import proofs.«135877_j54176717472000_2_alg».proof.Proof.RefNode
import Idealize.ShloMosaic.Adequacy
import Idealize.ShloMosaic.Init

set_option maxRecDepth 16384

noncomputable section

namespace Cert.Proof

open Idealize.ShloMosaic Idealize.ShloMosaic.TcCoe Idealize.SL.Sem

/-- The word-level kernel runs and leaves its arguments as launched. -/
theorem frame_k : Cert.frame_Kernel :=
  fun m ρ _ => Cert.Kernel.Gen.frame m ρ

/-- So does the idealized kernel. -/
theorem frame_ki : Cert.frame_KernelIdeal :=
  fun m ρ _ => Cert.KernelIdeal.Gen.frame m ρ

/-- So does the reference: its run, with the result dropped. -/
theorem frame_ri : Cert.frame_ReferenceIdeal :=
  fun m ρ _ => (θ_run Cert.ReferenceIdeal.defs _ _).mono (fun _ h c => (h c).2) (Cert.ReferenceIdeal.Value.run (F := Ideal) m ρ)

/-- From memories that agree on the arguments both idealized programs end with the node update of the guarded mean
    messages, as the reference's last stage names it. -/
theorem algebraic : Cert.algebraic_KernelIdeal_ReferenceIdeal := by
  intro m ρ m' ρ' _ hagree
  refine ⟨fun c => Cert.ReferenceIdeal.Read.val_main_v50 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)), ?_, ?_⟩
  · refine (θ_run Cert.KernelIdeal.defs _ _).mono (fun r h c => ⟨(h c).1.trans ?_, (h c).2⟩)
      (Cert.KernelIdeal.RunV.run_main (F := Ideal) m ρ)
    refine (Cert.KernelIdeal.ResultValue.result_eq m ρ c).trans ?_
    beta_reduce
    rw [Cert.ReferenceIdeal.RefValue.ref_out, Cert.ReferenceIdeal.RefValue.seg_eq, Cert.ReferenceIdeal.RefValue.ref_eh2]
  · refine (θ_run Cert.ReferenceIdeal.defs _ _).mono (fun r h c => ⟨(h c).1.trans ?_, (h c).2⟩)
      (Cert.ReferenceIdeal.Value.run (F := Ideal) m' ρ')
    obtain ⟨h0, h1, h2, h3, h4, h5, h6, h7, h8, h9, h10, h11, h12⟩ := hagree c
    beta_reduce
    rw [Cert.ReferenceIdeal.Read.val_main_v50_eq, h0, h1, h2, h3, h4, h5, h6, h7, h8, h9, h10, h11, h12]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
